-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x32 .f32) (main_arg5 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x64 : Shape := ⟨2, ![5000, 64]⟩
abbrev S5000x1 : Shape := ⟨2, ![5000, 1]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩

abbrev nBuf : Space → Nat
  | .hbm => 63
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .bf16⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x64, .bf16⟩
  | .hbm, ⟨38, _⟩ => ⟨S1700000x64, .f32⟩
  | .hbm, ⟨39, _⟩ => ⟨S_, .f32⟩
  | .hbm, ⟨40, _⟩ => ⟨S100000x64, .f32⟩
  | .hbm, ⟨41, _⟩ => ⟨S1700000x1, .i32⟩
  | .hbm, ⟨42, _⟩ => ⟨S100000x64, .f32⟩
  | .hbm, ⟨43, _⟩ => ⟨S100000x1, .f32⟩
  | .hbm, ⟨44, _⟩ => ⟨S1x64, .f32⟩
  | .hbm, ⟨45, _⟩ => ⟨S100000x32, .bf16⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x32, .bf16⟩
  | .hbm, ⟨55, _⟩ => ⟨S1700000x32, .f32⟩
  | .hbm, ⟨56, _⟩ => ⟨S_, .f32⟩
  | .hbm, ⟨57, _⟩ => ⟨S100000x32, .f32⟩
  | .hbm, ⟨58, _⟩ => ⟨S1700000x1, .i32⟩
  | .hbm, ⟨59, _⟩ => ⟨S100000x32, .f32⟩
  | .hbm, ⟨60, _⟩ => ⟨S100000x1, .f32⟩
  | .hbm, ⟨61, _⟩ => ⟨S1x32, .f32⟩
  | .hbm, ⟨62, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x32, .f32⟩
  | .local _ .vmem, ⟨13, _⟩ => ⟨S5000x32, .bf16⟩
  | .local _ .vmem, ⟨14, _⟩ => ⟨S5000x32, .bf16⟩
  | .local _ .vmem, ⟨15, _⟩ => ⟨S5000x32, .f32⟩
  | .local _ .vmem, ⟨16, _⟩ => ⟨S5000x32, .f32⟩
  | .local _ .vmem, ⟨17, _⟩ => ⟨S5000x1, .f32⟩
  | .local _ .vmem, ⟨18, _⟩ => ⟨S5000x1, .f32⟩
  | .local _ .vmem, ⟨19, _⟩ => ⟨S1x32, .f32⟩
  | .local _ .vmem, ⟨20, _⟩ => ⟨S5000x32, .f32⟩
  | .local _ .vmem, ⟨21, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  packedbf16_S5000x32_S5000x32_0_0 : (Rect.unit (s := S5000x32) ![0, 0] S5000x32.size inb_S5000x32_S5000x32_0_0).PackedRows (EltTy.packing .bf16)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S100000_S1700000x1_S1700000_n_0_0_1_wf : ScatterDims.WF S100000 S1700000x1 S1700000 [] [0] [0] 1
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .bf16 = 32 ∨ (Rect.block (s := S100000x32) S5000x32.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S100000x32.size a
  hwx2_3 : ∀ i : grid2.Coords, EltTy.bits .f32 = 32 ∨ (Rect.block (s := S100000x32) S5000x32.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 89
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KRun.lean ====
/-
  The program's run with its result named.

  The program is a chain of eight segments: three stretches of host operations, the first dense stage, a stretch, the
  second dense stage, a stretch, the last dense stage. The buffer contents at each boundary are a fold through the chain
  (`W0` … `W8`: a stretch applies its operations, a stage replaces its result array by what its blocks wrote back). Every
  weakly fair execution terminates without a fault, and in its final state every buffer that outlives the stages holds
  the last boundary's contents; the frame reads the argument arrays off that fact, and here the result array is read
  off it as well: it ends holding `W8` at the result's buffer.
-/
import proofs.«130958_j76905684402542_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's contents and
    the argument arrays as launched. -/
theorem run_result : θ_run defs (onTc (τ := τ) (main (F := F))) ⟨m, fun _ => 0, ρ⟩ (fun r => ∀ c : Dev nD,
      r.2.mem ((c.tc : Thread nD τ).loc main_v44) = W8 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v44 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Gen

end
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.LibRowsCols.lean ====
/-
  A matrix product of rows by columns, read at a row and a column.

  When the left operand's columns are contracted against the right operand's rows, the product at `(a, c)` — on the
  TensorCore into a zero accumulator, or the host's `dot_general` — is, at the ideal values, the sum over the shared
  coordinate `k` of the left operand at `(a, k)` times the right operand at `(k, c)`.
-/
import Idealize.ShloMosaic.PureOps.Ideal.Laws
import Idealize.ShloMosaic.Lib.ValueIdx
import proofs.«130958_j76905684402542_2_alg».proof.Proof.LibContract

namespace Idealize.ShloMosaic.RowsCols

open Idealize.ShloMosaic.ValueIdx

variable {M K N : Nat} (d : DotDims ⟨2, ![M, K]⟩ ⟨2, ![K, N]⟩ ⟨2, ![M, N]⟩)
  (hcl : d.lhsContracting = [1]) (hcr : d.rhsContracting = [0])
  (hrank : d.contr.rank = 1) (hsize : d.contr.size ⟨0, by omega⟩ = K)
  (hl0 : ∀ (j : (⟨2, ![M, N]⟩ : Shape).Idx) (q : d.contr.Idx), (d.lhsIdx j q 0).val = (j 0).val)
  (hr1 : ∀ (j : (⟨2, ![M, N]⟩ : Shape).Idx) (q : d.contr.Idx), (d.rhsIdx j q 1).val = (j 1).val)

include hcl hl0 in
/-- The left operand's index at output `(a, c)` and shared coordinate `k` is `(a, k)`. -/
theorem lhsIdx_eq (a : Fin M) (c : Fin N) (k : Fin K) :
    d.lhsIdx (ix2 a c) ((contrEquiv1 d K hrank hsize).symm k) = ix2 a k := by
  have hk := contrEquiv1_symm_val d K hrank hsize k
  funext x
  refine Fin.ext ?_
  match x with
  | ⟨0, _⟩ => exact hl0 _ _
  | ⟨1, _⟩ => exact (d.lhsIdx_val_of_single hcl _ _).trans hk

include hcr hr1 in
/-- The right operand's index at output `(a, c)` and shared coordinate `k` is `(k, c)`. -/
theorem rhsIdx_eq (a : Fin M) (c : Fin N) (k : Fin K) :
    d.rhsIdx (ix2 a c) ((contrEquiv1 d K hrank hsize).symm k) = ix2 k c := by
  have hk := contrEquiv1_symm_val d K hrank hsize k
  funext x
  refine Fin.ext ?_
  match x with
  | ⟨0, _⟩ => exact (d.rhsIdx_val_of_single hcr _ _).trans hk
  | ⟨1, _⟩ => exact hr1 _ _

include hcl hcr hrank hsize hl0 hr1 in
/-- The TensorCore product into the zero accumulator at `(a, c)`. -/
theorem matmul_zero_apply {φ₁ φ₂ : FTy} (prec : Option ContractPrecision)
    (lhs : FVec Ideal ⟨2, ![M, K]⟩ φ₁) (rhs : FVec Ideal ⟨2, ![K, N]⟩ φ₂) (a : Fin M) (c : Fin N) :
    FloatOps.matmul d prec lhs rhs (constant ⟨2, ![M, N]⟩ .f32 0x00000000#32) (ix2 a c) = ∑ k : Fin K, lhs (ix2 a k) * rhs (ix2 k c) :=
  ContractSingle.matmul_zero_single d prec K hrank hsize lhs rhs (ix2 a c) (fun k => lhs (ix2 a k)) (fun k => rhs (ix2 k c))
    (fun k => congrArg lhs (lhsIdx_eq d hcl hrank hsize hl0 a c k)) (fun k => congrArg rhs (rhsIdx_eq d hcr hrank hsize hr1 a c k))

include hcl hcr hrank hsize hl0 hr1 in
/-- The host's `dot_general` at `(a, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (a : Fin M) (c : Fin N) :
    FloatOps.dotGeneral d prec sched lhs rhs (ix2 a c) = ∑ k : Fin K, lhs (ix2 a k) * rhs (ix2 k c) :=
  ContractSingle.dotGeneral_single d prec sched K hrank hsize lhs rhs (ix2 a c) (fun k => lhs (ix2 a k)) (fun k => rhs (ix2 k c))
    (fun k => congrArg lhs (lhsIdx_eq d hcl hrank hsize hl0 a c k)) (fun k => congrArg rhs (rhsIdx_eq d hcr hrank hsize hr1 a c k))

end Idealize.ShloMosaic.RowsCols
-- ==== Proof.LibRowLayout.lean ====
/-
  Layout operations on matrices, read at a row and a column.

  Two matrices with the same rows set side by side read, at a column, the left one when the column is inside its width
  and the right one, the left width less, otherwise. Two vectors set end to end read the same way. A column vector
  (one entry per row) spread over the columns reads its row's entry at every column; a vector given a trailing unit
  axis reads its entry at the row. A scalar spread over any shape reads the scalar.
-/
import Idealize.ShloMosaic.Lib.Pipeline.Value
import Idealize.ShloMosaic.Lib.ValueIdx
import Idealize.ShloMosaic.Lib.ValueLayout

namespace Idealize.ShloMosaic.RowLayout

open Idealize.ShloMosaic.ValueIdx

variable {α : Type}

/-- Side by side along the columns: a column inside the left width reads the left matrix there. -/
theorem concat_cols_left {n a b c : Nat} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (r : Fin n) (k : Fin c) (k' : Fin a)
    (hk : k'.val = k.val) :
    concatenate ⟨2, ![n, c]⟩ 1 [⟨⟨2, ![n, a]⟩, x₁⟩, ⟨⟨2, ![n, b]⟩, x₂⟩] h (ix2 r k) = x₁ (ix2 r k') :=
  concatenate_pair_apply_left 1 x₁ x₂ h (ix2 r k) rfl (ix2 r k') fun d => by
    match d with
    | ⟨0, _⟩ => rfl
    | ⟨1, _⟩ => exact hk

/-- Side by side along the columns: a column past the left width reads the right matrix, the left width less. -/
theorem concat_cols_right {n a b c : Nat} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (r : Fin n) (k : Fin c) (k' : Fin b)
    (hk : k'.val + a = k.val) :
    concatenate ⟨2, ![n, c]⟩ 1 [⟨⟨2, ![n, a]⟩, x₁⟩, ⟨⟨2, ![n, b]⟩, x₂⟩] h (ix2 r k) = x₂ (ix2 r k') :=
  concatenate_pair_apply_right 1 x₁ x₂ h (ix2 r k) rfl rfl (ix2 r k') (fun d hd => by
    match d with
    | ⟨0, _⟩ => rfl
    | ⟨1, _⟩ => exact absurd rfl hd) hk

/-- End to end: a position inside the first length reads the first vector there. -/
theorem concat_vec_left {a b c : Nat} (x₁ : (⟨1, ![a]⟩ : Shape).Idx → α) (x₂ : (⟨1, ![b]⟩ : Shape).Idx → α)
    (h : Shape.Concatenates [(⟨1, ![a]⟩ : Shape), ⟨1, ![b]⟩] ⟨1, ![c]⟩ 0) (k : Fin c) (k' : Fin a) (hk : k'.val = k.val) :
    concatenate ⟨1, ![c]⟩ 0 [⟨⟨1, ![a]⟩, x₁⟩, ⟨⟨1, ![b]⟩, x₂⟩] h (ix1 k) = x₁ (ix1 k') :=
  concatenate_pair_apply_left 0 x₁ x₂ h (ix1 k) rfl (ix1 k') fun d => by
    match d with
    | ⟨0, _⟩ => exact hk

/-- End to end: a position past the first length reads the second vector, the first length less. -/
theorem concat_vec_right {a b c : Nat} (x₁ : (⟨1, ![a]⟩ : Shape).Idx → α) (x₂ : (⟨1, ![b]⟩ : Shape).Idx → α)
    (h : Shape.Concatenates [(⟨1, ![a]⟩ : Shape), ⟨1, ![b]⟩] ⟨1, ![c]⟩ 0) (k : Fin c) (k' : Fin b) (hk : k'.val + a = k.val) :
    concatenate ⟨1, ![c]⟩ 0 [⟨⟨1, ![a]⟩, x₁⟩, ⟨⟨1, ![b]⟩, x₂⟩] h (ix1 k) = x₂ (ix1 k') :=
  concatenate_pair_apply_right 0 x₁ x₂ h (ix1 k) rfl rfl (ix1 k') (fun d hd => by
    match d with
    | ⟨0, _⟩ => exact absurd rfl hd) hk

/-- A column vector spread over `b` columns reads, at `(p, c)`, its entry of row `p`. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector given a trailing unit axis reads, at `(p, u)`, its entry `p`. -/
theorem shapeCast_a_a1_apply {a : Nat} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A scalar spread over any shape reads the scalar everywhere. -/
theorem spread_scalar {t : Shape} (h : (⟨0, ![]⟩ : Shape).BroadcastsInDim t ![]) (x : (⟨0, ![]⟩ : Shape).Idx → α) (j : t.Idx) :
    broadcastInDim t ![] h x j = x ix0 :=
  broadcastInDim_apply _ h x j ix0 (fun a => a.elim0)

/-- Two pieces joined along an axis, as a function of the two pieces: the library's `concatenate` of the two-element list of
    the pieces paired with their shapes. -/
def concat2 (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concat2_eq (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = concat2 t a s₁ s₂ x₁ x₂ h := rfl

end Idealize.ShloMosaic.RowLayout
-- ==== Proof.KReg0.lean ====
/-
  The first dense stage of the graph convolution, as one function of its three arrays.

  The stage works on blocks of 5000 rows. From a block of the features `X` (5000 × 64), the whole weight matrix `W`
  (64 × 64) and the block's column of row factors `D` (5000 × 1) it stores, at row `p` and column `q` of the block,
      (∑ₖ X[p, k] · W[k, q]) · D[p, 0];
  the rounding of the operands and of the result to a shorter float format is the identity on extended reals. Block `t`
  of every row-blocked array starts at row `5000 · t`, so the value stored for row `p` of block `t` is the same formula
  at row `5000 · t + p` of the whole arrays (`proj`); the twenty blocks cover the 100000 rows, so after the last block the
  result array IS `proj X W D` (`final`). Everything is stated for ANY contents of the arrays when the stage is entered.
-/
import proofs.«130958_j76905684402542_2_alg».proof.Proof.Gen.KernelIdeal.Frame
import proofs.«130958_j76905684402542_2_alg».proof.Proof.LibRowsCols
import proofs.«130958_j76905684402542_2_alg».proof.Proof.LibRowLayout
import Idealize.ShloMosaic.Lib.Pipeline.Value
import Idealize.ShloMosaic.Lib.ValueIdx
import Idealize.ShloMosaic.PureOps.Ideal.Laws

noncomputable section

namespace Cert.KernelIdeal.Reg0

open Cert.KernelIdeal Cert.KernelIdeal.Gen Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- Row `r`, column `c` of the scaled projection: `(∑ₖ X[r, k] · W[k, c]) · D[r, 0]`. -/
def proj (X : S100000x64.Idx → Elt Ideal .f32) (W : S64x64.Idx → Elt Ideal .f32) (D : S100000x1.Idx → Elt Ideal .f32) :
    S100000x64.Idx → Elt Ideal .f32 :=
  fun i => (∑ k : Fin 64, X (ix2 (⟨(i 0).val, idx2_lt0 i⟩ : Fin 100000) k) * W (ix2 k (⟨(i 1).val, idx2_lt1 i⟩ : Fin 64)))
    * D (ix2 (⟨(i 0).val, idx2_lt0 i⟩ : Fin 100000) (0 : Fin 1))

theorem proj_apply (X : S100000x64.Idx → Elt Ideal .f32) (W : S64x64.Idx → Elt Ideal .f32) (D : S100000x1.Idx → Elt Ideal .f32)
    (r : Fin 100000) (q : Fin 64) :
    proj X W D (ix2 r q) = (∑ k : Fin 64, X (ix2 r k) * W (ix2 k q)) * D (ix2 r (0 : Fin 1)) := rfl

/-! ## The matrix product's operand indices -/

theorem dot_l0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

theorem dot_r1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-! ## What one block stores, entry by entry -/

/-- Entry `(p, q)` of the stored block, from the three loaded blocks. -/
theorem pay_apply (x0 : Vec Ideal S5000x64 .f32) (x1 : Vec Ideal S64x64 .f32) (x2 : Vec Ideal S5000x1 .f32)
    (p : Fin 5000) (q : Fin 64) :
    k0_pay1 (F := Ideal) x0 x1 x2 (ix2 p q)
      = (∑ k : Fin 64, x0 (ix2 p k) * x1 (ix2 k q)) * x2 (ix2 p (0 : Fin 1)) := by
  unfold k0_pay1
  refine congrArg₂ (fun a b : EReal => a * b) ?_ ?_
  · exact RowsCols.matmul_zero_apply dot_S5000x64_S64x64_S5000x64_1_0_0_1_n_n rfl rfl rfl rfl dot_l0 dot_r1 none _ _ p q
  · exact (RowLayout.broadcastTo_a1_ab_apply _ broadcasts_S5000x1_S5000x64 p q).trans
      (congrFun (shapeCast_self x2 shapeCasts_S5000x1_S5000x1) _)

/-! ## The blocks' places in the arrays -/

/-- The printed index maps, decided over the twenty blocks: the row-blocked windows sit at block row `t`, the whole
    windows at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- An entry of block `t` of the features is the entry of the whole array `5000 · t` rows further down. -/
theorem read0 (c : Dev nD) (t : Fin cfg0.N) (y : S5000x64.Idx) (i : S100000x64.Idx)
    (h0 : (i 0).val = t.val * 5000 + (y 0).val) (h1 : (i 1).val = (y 1).val) :
    iblk0 V c 0 t y = V c main_arg0 i := by
  obtain ⟨e0, e1, -⟩ := idx_facts t
  show V c main_arg0 (((cfg0.win 0).blk t).view.emb y) = V c main_arg0 i
  refine congrArg (V c main_arg0) (funext fun a => Fin.ext ?_)
  match a with
  | ⟨0, _⟩ => show win0_0.index t (0 : Fin 2) * 5000 + 1 * (y 0).val = (i 0).val; omega
  | ⟨1, _⟩ => show win0_0.index t (1 : Fin 2) * 64 + 1 * (y 1).val = (i 1).val; omega

/-- The weights' one block is the whole matrix. -/
theorem read1 (c : Dev nD) (t : Fin cfg0.N) (y : S64x64.Idx) : iblk0 V c 1 t y = V c main_arg2 y := by
  obtain ⟨-, -, e2, e3, -⟩ := idx_facts t
  show V c main_arg2 (((cfg0.win 1).blk t).view.emb y) = V c main_arg2 y
  refine congrArg (V c main_arg2) (funext fun a => Fin.ext ?_)
  match a with
  | ⟨0, _⟩ => show win0_1.index t (0 : Fin 2) * 64 + 1 * (y 0).val = (y 0).val; omega
  | ⟨1, _⟩ => show win0_1.index t (1 : Fin 2) * 64 + 1 * (y 1).val = (y 1).val; omega

/-- An entry of block `t` of the row factors is the entry of the whole column `5000 · t` rows further down. -/
theorem read2 (c : Dev nD) (t : Fin cfg0.N) (y : S5000x1.Idx) (i : S100000x1.Idx)
    (h0 : (i 0).val = t.val * 5000 + (y 0).val) (h1 : (i 1).val = (y 1).val) :
    iblk0 V c 2 t y = V c main_v15 i := by
  obtain ⟨-, -, -, -, e4, e5, -⟩ := idx_facts t
  show V c main_v15 (((cfg0.win 2).blk t).view.emb y) = V c main_v15 i
  refine congrArg (V c main_v15) (funext fun a => Fin.ext ?_)
  match a with
  | ⟨0, _⟩ => show win0_2.index t (0 : Fin 2) * 5000 + 1 * (y 0).val = (i 0).val; omega
  | ⟨1, _⟩ => show win0_2.index t (1 : Fin 2) * 1 + 1 * (y 1).val = (i 1).val; omega

/-- What block `t` writes back is block `t` of `proj` of the arrays as the stage finds them. -/
theorem flushed_eq (c : Dev nD) (t : Fin cfg0.N) :
    (dat0 (F := Ideal) V c).flushed 3 t
      = ((cfg0.win 3).blk t).view.read (Elt Ideal) (proj (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz, View.ld_unit_zero (S := S5000x1) hz]
  obtain ⟨-, -, -, -, -, -, e6, e7⟩ := idx_facts t
  funext j
  have hj0 : (j 0).val < 5000 := (j 0).isLt
  have hj1 : (j 1).val < 64 := (j 1).isLt
  have hj : j = ix2 (⟨(j 0).val, hj0⟩ : Fin 5000) (⟨(j 1).val, hj1⟩ : Fin 64) := by
    funext a; match a with | ⟨0, _⟩ => rfl | ⟨1, _⟩ => rfl
  have hr : t.val * 5000 + (j 0).val < 100000 := by
    have ht := t.isLt
    have hN : cfg0.N = 20 := N_0
    omega
  have hi : ((cfg0.win 3).blk t).view.emb j
      = ix2 (⟨t.val * 5000 + (j 0).val, hr⟩ : Fin 100000) (⟨(j 1).val, hj1⟩ : Fin 64) := by
    funext a; refine Fin.ext ?_
    match a with
    | ⟨0, _⟩ => show win0_3.index t (0 : Fin 2) * 5000 + 1 * (j 0).val = t.val * 5000 + (j 0).val; omega
    | ⟨1, _⟩ => show win0_3.index t (1 : Fin 2) * 64 + 1 * (j 1).val = (j 1).val; omega
  show k0_pay1 (iblk0 V c 0 t) (iblk0 V c 1 t) (iblk0 V c 2 t) j
    = proj (V c main_arg0) (V c main_arg2) (V c main_v15) (((cfg0.win 3).blk t).view.emb j)
  rw [hi, proj_apply]
  refine (congrArg (k0_pay1 (iblk0 V c 0 t) (iblk0 V c 1 t) (iblk0 V c 2 t)) hj).trans ?_
  refine (pay_apply (iblk0 V c 0 t) (iblk0 V c 1 t) (iblk0 V c 2 t) _ _).trans ?_
  refine congrArg₂ (fun a b : EReal => a * b) (Finset.sum_congr rfl fun k _ => congrArg₂ (fun a b : EReal => a * b) ?_ ?_) ?_
  · exact read0 V c t _ _ rfl rfl
  · exact read1 V c t _
  · exact read2 V c t _ _ rfl rfl

/-! ## The blocks cover the array -/

theorem mem_blk (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v16).slice (win0_3.rect t)).set ↔ _
  rw [View.set_slice_whole, Rect.mem_set_unit]
  exact Iff.rfl

/-- Row `r` lies in block `r / 5000`. -/
theorem cover (i : S100000x64.Idx) :
    ∃ t : Fin cfg0.N, (cfg0.win 3).flush t = true ∧ i ∈ ((cfg0.win 3).blk t).view.set := by
  have hi0 : (i 0).val < 100000 := idx2_lt0 i
  have hi1 : (i 1).val < 64 := idx2_lt1 i
  have ht : (i 0).val / 5000 < cfg0.N := by rw [show cfg0.N = 20 from N_0]; omega
  refine ⟨⟨(i 0).val / 5000, ht⟩, flush0_3 _, ?_⟩
  rw [mem_blk]
  obtain ⟨-, -, -, -, -, -, e6, e7⟩ := idx_facts ⟨(i 0).val / 5000, ht⟩
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e6]
    show (i 0).val / 5000 * 5000 ≤ (i 0).val ∧ (i 0).val < (i 0).val / 5000 * 5000 + 5000
    omega
  | ⟨1, _⟩ =>
    show win0_3.index ⟨(i 0).val / 5000, ht⟩ (1 : Fin 2) * 64 ≤ (i 1).val
      ∧ (i 1).val < win0_3.index ⟨(i 0).val / 5000, ht⟩ (1 : Fin 2) * 64 + 64
    rw [e7]
    omega

/-- After the last block the result array is `proj` of the arrays the stage was entered with. -/
theorem final (c : Dev nD) :
    (dat0 (F := Ideal) V c).arrAt 3 cfg0.N = proj (V c main_arg0) (V c main_arg2) (V c main_v15) :=
  (dat0 V c).arrAt_eq_of_cover 3 _ (fun t _ => flushed_eq V c t) cover

end Cert.KernelIdeal.Reg0

end
-- ==== Proof.KReg1.lean ====
/-
  The second dense stage of the graph convolution, as one function of its four arrays.

  From a block of 5000 rows of the first aggregate `A` (5000 × 64), the block's column of row factors `D` (5000 × 1),
  the bias row `B` (1 × 64) and the whole second weight matrix `W` (64 × 32) the stage stores, at row `p` and column `q`,
      (∑ₖ max (A[p, k] · D[p, 0] + B[0, k]) 0 · W[k, q]) · D[p, 0]:
  the rectified hidden features are never written out, they are the left operand of the product. Roundings to a shorter
  float format are the identity on extended reals. Block `t` of a row-blocked array starts at row `5000 · t`, and the
  twenty blocks cover the 100000 rows, so after the last block the result array IS that formula of the whole arrays
  (`hidden`, `final`), for ANY contents of the arrays when the stage is entered.
-/
import proofs.«130958_j76905684402542_2_alg».proof.Proof.Gen.KernelIdeal.Frame
import proofs.«130958_j76905684402542_2_alg».proof.Proof.LibRowsCols
import proofs.«130958_j76905684402542_2_alg».proof.Proof.LibRowLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg1

open Cert.KernelIdeal Cert.KernelIdeal.Gen Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- Row `r`, column `q` of the second stage: `(∑ₖ max (A[r, k] · D[r, 0] + B[0, k]) 0 · W[k, q]) · D[r, 0]`. -/
def hidden (A : S100000x64.Idx → Elt Ideal .f32) (D : S100000x1.Idx → Elt Ideal .f32) (B : S1x64.Idx → Elt Ideal .f32)
    (W : S64x32.Idx → Elt Ideal .f32) : S100000x32.Idx → Elt Ideal .f32 :=
  fun i => (∑ k : Fin 64,
      max (A (ix2 (⟨(i 0).val, idx2_lt0 i⟩ : Fin 100000) k) * D (ix2 (⟨(i 0).val, idx2_lt0 i⟩ : Fin 100000) (0 : Fin 1))
          + B (ix2 (0 : Fin 1) k)) (Ideal.ofBits .f32 0x00000000#32)
        * W (ix2 k (⟨(i 1).val, idx2_lt1 i⟩ : Fin 32)))
    * D (ix2 (⟨(i 0).val, idx2_lt0 i⟩ : Fin 100000) (0 : Fin 1))

theorem hidden_apply (A : S100000x64.Idx → Elt Ideal .f32) (D : S100000x1.Idx → Elt Ideal .f32) (B : S1x64.Idx → Elt Ideal .f32)
    (W : S64x32.Idx → Elt Ideal .f32) (r : Fin 100000) (q : Fin 32) :
    hidden A D B W (ix2 r q)
      = (∑ k : Fin 64, max (A (ix2 r k) * D (ix2 r (0 : Fin 1)) + B (ix2 (0 : Fin 1) k)) (Ideal.ofBits .f32 0x00000000#32)
          * W (ix2 k q)) * D (ix2 r (0 : Fin 1)) := rfl

/-! ## The matrix product's operand indices -/

theorem dot_l0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide),
    dif_pos (show (0 : Fin S5000x64.rank) ∈ dot_S5000x64_S64x32_S5000x32_1_0_0_1_n_n.lhsNonContracting by decide)]
  rfl

theorem dot_r1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide),
    dif_pos (show (1 : Fin S64x32.rank) ∈ dot_S5000x64_S64x32_S5000x32_1_0_0_1_n_n.rhsNonContracting by decide)]
  rfl

/-! ## What one block stores, entry by entry -/

/-- Entry `(p, q)` of the stored block, from the loaded blocks (the row factors are loaded twice). -/
theorem pay_apply (x0 : Vec Ideal S5000x64 .f32) (x1 : Vec Ideal S5000x1 .f32) (x2 : Vec Ideal S1x64 .f32)
    (x3 : Vec Ideal S64x32 .f32) (x4 : Vec Ideal S5000x1 .f32) (p : Fin 5000) (q : Fin 32) :
    k1_pay1 (F := Ideal) x0 x1 x2 x3 x4 (ix2 p q)
      = (∑ k : Fin 64, max (x0 (ix2 p k) * x1 (ix2 p (0 : Fin 1)) + x2 (ix2 (0 : Fin 1) k)) (Ideal.ofBits .f32 0x00000000#32)
          * x3 (ix2 k q)) * x4 (ix2 p (0 : Fin 1)) := by
  unfold k1_pay1
  refine congrArg₂ (fun a b : EReal => a * b) ?_ ?_
  · refine (RowsCols.matmul_zero_apply dot_S5000x64_S64x32_S5000x32_1_0_0_1_n_n rfl rfl rfl rfl dot_l0 dot_r1 none _ _ p q).trans ?_
    refine Finset.sum_congr rfl fun k _ => congrArg₂ (fun a b : EReal => a * b) ?_ rfl
    refine congrArg₂ (fun a b : EReal => max a b)
      (congrArg₂ (fun a b : EReal => a + b) (congrArg₂ (fun a b : EReal => a * b) ?_ ?_) ?_) rfl
    · exact congrFun (shapeCast_self x0 shapeCasts_S5000x64_S5000x64) _
    · exact (RowLayout.broadcastTo_a1_ab_apply _ broadcasts_S5000x1_S5000x64 p k).trans
        (congrFun (shapeCast_self x1 shapeCasts_S5000x1_S5000x1) _)
    · exact (broadcastTo_1b_ab_apply _ broadcasts_S1x64_S5000x64 p k).trans
        (congrFun (shapeCast_self x2 shapeCasts_S1x64_S1x64) _)
  · exact (RowLayout.broadcastTo_a1_ab_apply _ broadcasts_S5000x1_S5000x32 p q).trans
      (congrFun (shapeCast_self x4 shapeCasts_S5000x1_S5000x1) _)

/-! ## The blocks' places in the arrays -/

/-- The printed index maps, decided over the twenty blocks: the row-blocked windows sit at block row `t`, the whole
    windows at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- An entry of block `t` of the aggregate is the entry of the whole array `5000 · t` rows further down. -/
theorem read0 (c : Dev nD) (t : Fin cfg1.N) (y : S5000x64.Idx) (i : S100000x64.Idx)
    (h0 : (i 0).val = t.val * 5000 + (y 0).val) (h1 : (i 1).val = (y 1).val) :
    iblk1 V c 0 t y = V c main_v27 i := by
  have e := idx_facts t
  show V c main_v27 (((cfg1.win 0).blk t).view.emb y) = V c main_v27 i
  refine congrArg (V c main_v27) (funext fun a => Fin.ext ?_)
  match a with
  | ⟨0, _⟩ => show win1_0.index t (0 : Fin 2) * 5000 + 1 * (y 0).val = (i 0).val; omega
  | ⟨1, _⟩ => show win1_0.index t (1 : Fin 2) * 64 + 1 * (y 1).val = (i 1).val; omega

/-- An entry of block `t` of the row factors is the entry of the whole column `5000 · t` rows further down. -/
theorem read1 (c : Dev nD) (t : Fin cfg1.N) (y : S5000x1.Idx) (i : S100000x1.Idx)
    (h0 : (i 0).val = t.val * 5000 + (y 0).val) (h1 : (i 1).val = (y 1).val) :
    iblk1 V c 1 t y = V c main_v28 i := by
  have e := idx_facts t
  show V c main_v28 (((cfg1.win 1).blk t).view.emb y) = V c main_v28 i
  refine congrArg (V c main_v28) (funext fun a => Fin.ext ?_)
  match a with
  | ⟨0, _⟩ => show win1_1.index t (0 : Fin 2) * 5000 + 1 * (y 0).val = (i 0).val; omega
  | ⟨1, _⟩ => show win1_1.index t (1 : Fin 2) * 1 + 1 * (y 1).val = (i 1).val; omega

/-- The bias row's one block is the whole row. -/
theorem read2 (c : Dev nD) (t : Fin cfg1.N) (y : S1x64.Idx) : iblk1 V c 2 t y = V c main_v29 y := by
  have e := idx_facts t
  show V c main_v29 (((cfg1.win 2).blk t).view.emb y) = V c main_v29 y
  refine congrArg (V c main_v29) (funext fun a => Fin.ext ?_)
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- The weights' one block is the whole matrix. -/
theorem read3 (c : Dev nD) (t : Fin cfg1.N) (y : S64x32.Idx) : iblk1 V c 3 t y = V c main_arg4 y := by
  have e := idx_facts t
  show V c main_arg4 (((cfg1.win 3).blk t).view.emb y) = V c main_arg4 y
  refine congrArg (V c main_arg4) (funext fun a => Fin.ext ?_)
  match a with
  | ⟨0, _⟩ => show win1_3.index t (0 : Fin 2) * 64 + 1 * (y 0).val = (y 0).val; omega
  | ⟨1, _⟩ => show win1_3.index t (1 : Fin 2) * 32 + 1 * (y 1).val = (y 1).val; omega

/-- What block `t` writes back is block `t` of `hidden` of the arrays as the stage finds them. -/
theorem flushed_eq (c : Dev nD) (t : Fin cfg1.N) :
    (dat1 (F := Ideal) V c).flushed 4 t
      = ((cfg1.win 4).blk t).view.read (Elt Ideal) (hidden (V c main_v27) (V c main_v28) (V c main_v29) (V c main_arg4)) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz, View.ld_unit_zero (S := S1x64) hz,
    View.ld_unit_zero (S := S64x32) hz]
  obtain ⟨-, -, -, -, -, -, -, -, e8, e9⟩ := idx_facts t
  funext j
  have hj0 : (j 0).val < 5000 := (j 0).isLt
  have hj1 : (j 1).val < 32 := (j 1).isLt
  have hj : j = ix2 (⟨(j 0).val, hj0⟩ : Fin 5000) (⟨(j 1).val, hj1⟩ : Fin 32) := by
    funext a; match a with | ⟨0, _⟩ => rfl | ⟨1, _⟩ => rfl
  have hr : t.val * 5000 + (j 0).val < 100000 := by
    have ht := t.isLt
    have hN : cfg1.N = 20 := N_1
    omega
  have hi : ((cfg1.win 4).blk t).view.emb j
      = ix2 (⟨t.val * 5000 + (j 0).val, hr⟩ : Fin 100000) (⟨(j 1).val, hj1⟩ : Fin 32) := by
    funext a; refine Fin.ext ?_
    match a with
    | ⟨0, _⟩ => show win1_4.index t (0 : Fin 2) * 5000 + 1 * (j 0).val = t.val * 5000 + (j 0).val; omega
    | ⟨1, _⟩ => show win1_4.index t (1 : Fin 2) * 32 + 1 * (j 1).val = (j 1).val; omega
  show k1_pay1 (iblk1 V c 0 t) (iblk1 V c 1 t) (iblk1 V c 2 t) (iblk1 V c 3 t) (iblk1 V c 1 t) j
    = hidden (V c main_v27) (V c main_v28) (V c main_v29) (V c main_arg4) (((cfg1.win 4).blk t).view.emb j)
  rw [hi, hidden_apply]
  refine (congrArg (k1_pay1 (iblk1 V c 0 t) (iblk1 V c 1 t) (iblk1 V c 2 t) (iblk1 V c 3 t) (iblk1 V c 1 t)) hj).trans ?_
  refine (pay_apply (iblk1 V c 0 t) (iblk1 V c 1 t) (iblk1 V c 2 t) (iblk1 V c 3 t) (iblk1 V c 1 t) _ _).trans ?_
  refine congrArg₂ (fun a b : EReal => a * b) (Finset.sum_congr rfl fun k _ => congrArg₂ (fun a b : EReal => a * b)
    (congrArg₂ (fun a b : EReal => max a b) (congrArg₂ (fun a b : EReal => a + b) (congrArg₂ (fun a b : EReal => a * b) ?_ ?_) ?_) rfl) ?_) ?_
  · exact read0 V c t _ _ rfl rfl
  · exact read1 V c t _ _ rfl rfl
  · exact read2 V c t _
  · exact read3 V c t _
  · exact read1 V c t _ _ rfl rfl

/-! ## The blocks cover the array -/

theorem mem_blk (t : Fin cfg1.N) (i : S100000x32.Idx) :
    i ∈ ((cfg1.win 4).blk t).view.set ↔ ∀ a : Fin 2, win1_4.index t a * S5000x32.size a ≤ (i a).val
      ∧ (i a).val < win1_4.index t a * S5000x32.size a + S5000x32.size a := by
  show i ∈ ((View.whole main_v30).slice (win1_4.rect t)).set ↔ _
  rw [View.set_slice_whole, Rect.mem_set_unit]
  exact Iff.rfl

/-- Row `r` lies in block `r / 5000`. -/
theorem cover (i : S100000x32.Idx) :
    ∃ t : Fin cfg1.N, (cfg1.win 4).flush t = true ∧ i ∈ ((cfg1.win 4).blk t).view.set := by
  have hi0 : (i 0).val < 100000 := idx2_lt0 i
  have hi1 : (i 1).val < 32 := idx2_lt1 i
  have ht : (i 0).val / 5000 < cfg1.N := by rw [show cfg1.N = 20 from N_1]; omega
  refine ⟨⟨(i 0).val / 5000, ht⟩, flush1_4 _, ?_⟩
  rw [mem_blk]
  obtain ⟨-, -, -, -, -, -, -, -, e8, e9⟩ := idx_facts ⟨(i 0).val / 5000, ht⟩
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e8]
    show (i 0).val / 5000 * 5000 ≤ (i 0).val ∧ (i 0).val < (i 0).val / 5000 * 5000 + 5000
    omega
  | ⟨1, _⟩ =>
    show win1_4.index ⟨(i 0).val / 5000, ht⟩ (1 : Fin 2) * 32 ≤ (i 1).val
      ∧ (i 1).val < win1_4.index ⟨(i 0).val / 5000, ht⟩ (1 : Fin 2) * 32 + 32
    rw [e9]
    omega

/-- After the last block the result array is `hidden` of the arrays the stage was entered with. -/
theorem final (c : Dev nD) :
    (dat1 (F := Ideal) V c).arrAt 4 cfg1.N = hidden (V c main_v27) (V c main_v28) (V c main_v29) (V c main_arg4) :=
  (dat1 V c).arrAt_eq_of_cover 4 _ (fun t _ => flushed_eq V c t) cover

end Cert.KernelIdeal.Reg1

end
-- ==== Proof.KReg2.lean ====
/-
  The last dense stage of the graph convolution, as one function of its three arrays.

  From a block of 5000 rows of the second aggregate `A` (5000 × 32), the block's column of row factors `D` (5000 × 1)
  and the bias row `B` (1 × 32) the stage stores, at row `p` and column `q`,  `A[p, q] · D[p, 0] + B[0, q]`.
  Block `t` of a row-blocked array starts at row `5000 · t`, and the twenty blocks cover the 100000 rows, so after the
  last block the result array IS that formula of the whole arrays (`scaled`, `final`), for ANY contents of the arrays
  when the stage is entered.
-/
import proofs.«130958_j76905684402542_2_alg».proof.Proof.Gen.KernelIdeal.Frame
import proofs.«130958_j76905684402542_2_alg».proof.Proof.LibRowsCols
import proofs.«130958_j76905684402542_2_alg».proof.Proof.LibRowLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg2

open Cert.KernelIdeal Cert.KernelIdeal.Gen Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- Row `r`, column `q` of the last stage: `A[r, q] · D[r, 0] + B[0, q]`. -/
def scaled (A : S100000x32.Idx → Elt Ideal .f32) (D : S100000x1.Idx → Elt Ideal .f32) (B : S1x32.Idx → Elt Ideal .f32) :
    S100000x32.Idx → Elt Ideal .f32 :=
  fun i => A (ix2 (⟨(i 0).val, idx2_lt0 i⟩ : Fin 100000) (⟨(i 1).val, idx2_lt1 i⟩ : Fin 32))
      * D (ix2 (⟨(i 0).val, idx2_lt0 i⟩ : Fin 100000) (0 : Fin 1))
    + B (ix2 (0 : Fin 1) (⟨(i 1).val, idx2_lt1 i⟩ : Fin 32))

theorem scaled_apply (A : S100000x32.Idx → Elt Ideal .f32) (D : S100000x1.Idx → Elt Ideal .f32) (B : S1x32.Idx → Elt Ideal .f32)
    (r : Fin 100000) (q : Fin 32) :
    scaled A D B (ix2 r q) = A (ix2 r q) * D (ix2 r (0 : Fin 1)) + B (ix2 (0 : Fin 1) q) := rfl

/-! ## What one block stores, entry by entry -/

theorem pay_apply (x0 : Vec Ideal S5000x32 .f32) (x1 : Vec Ideal S5000x1 .f32) (x2 : Vec Ideal S1x32 .f32)
    (p : Fin 5000) (q : Fin 32) :
    k2_pay1 (F := Ideal) x0 x1 x2 (ix2 p q) = x0 (ix2 p q) * x1 (ix2 p (0 : Fin 1)) + x2 (ix2 (0 : Fin 1) q) := by
  unfold k2_pay1
  refine congrArg₂ (fun a b : EReal => a + b) (congrArg₂ (fun a b : EReal => a * b) ?_ ?_) ?_
  · exact congrFun (shapeCast_self x0 shapeCasts_S5000x32_S5000x32) _
  · exact (RowLayout.broadcastTo_a1_ab_apply _ broadcasts_S5000x1_S5000x32 p q).trans
      (congrFun (shapeCast_self x1 shapeCasts_S5000x1_S5000x1) _)
  · exact (broadcastTo_1b_ab_apply _ broadcasts_S1x32_S5000x32 p q).trans
      (congrFun (shapeCast_self x2 shapeCasts_S1x32_S1x32) _)

/-! ## The blocks' places in the arrays -/

/-- The printed index maps, decided over the twenty blocks: the row-blocked windows sit at block row `t`, the whole
    window at the origin. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- An entry of block `t` of the aggregate is the entry of the whole array `5000 · t` rows further down. -/
theorem read0 (c : Dev nD) (t : Fin cfg2.N) (y : S5000x32.Idx) (i : S100000x32.Idx)
    (h0 : (i 0).val = t.val * 5000 + (y 0).val) (h1 : (i 1).val = (y 1).val) :
    iblk2 V c 0 t y = V c main_v41 i := by
  have e := idx_facts t
  show V c main_v41 (((cfg2.win 0).blk t).view.emb y) = V c main_v41 i
  refine congrArg (V c main_v41) (funext fun a => Fin.ext ?_)
  match a with
  | ⟨0, _⟩ => show win2_0.index t (0 : Fin 2) * 5000 + 1 * (y 0).val = (i 0).val; omega
  | ⟨1, _⟩ => show win2_0.index t (1 : Fin 2) * 32 + 1 * (y 1).val = (i 1).val; omega

/-- An entry of block `t` of the row factors is the entry of the whole column `5000 · t` rows further down. -/
theorem read1 (c : Dev nD) (t : Fin cfg2.N) (y : S5000x1.Idx) (i : S100000x1.Idx)
    (h0 : (i 0).val = t.val * 5000 + (y 0).val) (h1 : (i 1).val = (y 1).val) :
    iblk2 V c 1 t y = V c main_v42 i := by
  have e := idx_facts t
  show V c main_v42 (((cfg2.win 1).blk t).view.emb y) = V c main_v42 i
  refine congrArg (V c main_v42) (funext fun a => Fin.ext ?_)
  match a with
  | ⟨0, _⟩ => show win2_1.index t (0 : Fin 2) * 5000 + 1 * (y 0).val = (i 0).val; omega
  | ⟨1, _⟩ => show win2_1.index t (1 : Fin 2) * 1 + 1 * (y 1).val = (i 1).val; omega

/-- The bias row's one block is the whole row. -/
theorem read2 (c : Dev nD) (t : Fin cfg2.N) (y : S1x32.Idx) : iblk2 V c 2 t y = V c main_v43 y := by
  have e := idx_facts t
  show V c main_v43 (((cfg2.win 2).blk t).view.emb y) = V c main_v43 y
  refine congrArg (V c main_v43) (funext fun a => Fin.ext ?_)
  match a with
  | ⟨0, _⟩ => show win2_2.index t (0 : Fin 2) * 1 + 1 * (y 0).val = (y 0).val; omega
  | ⟨1, _⟩ => show win2_2.index t (1 : Fin 2) * 32 + 1 * (y 1).val = (y 1).val; omega

/-- What block `t` writes back is block `t` of `scaled` of the arrays as the stage finds them. -/
theorem flushed_eq (c : Dev nD) (t : Fin cfg2.N) :
    (dat2 (F := Ideal) V c).flushed 3 t
      = ((cfg2.win 3).blk t).view.read (Elt Ideal) (scaled (V c main_v41) (V c main_v42) (V c main_v43)) := by
  show (cfg2.win 3).cut (grid2.coords t) ((dat2 V c).after 3 t) = _
  rw [after2_3]
  unfold out2_3
  rw [View.canon_unit_zero hz]
  simp only [View.ld_unit_zero (S := S5000x32) hz, View.ld_unit_zero (S := S5000x1) hz, View.ld_unit_zero (S := S1x32) hz]
  obtain ⟨-, -, -, -, -, -, e6, e7⟩ := idx_facts t
  funext j
  have hj0 : (j 0).val < 5000 := (j 0).isLt
  have hj1 : (j 1).val < 32 := (j 1).isLt
  have hj : j = ix2 (⟨(j 0).val, hj0⟩ : Fin 5000) (⟨(j 1).val, hj1⟩ : Fin 32) := by
    funext a; match a with | ⟨0, _⟩ => rfl | ⟨1, _⟩ => rfl
  have hr : t.val * 5000 + (j 0).val < 100000 := by
    have ht := t.isLt
    have hN : cfg2.N = 20 := N_2
    omega
  have hi : ((cfg2.win 3).blk t).view.emb j
      = ix2 (⟨t.val * 5000 + (j 0).val, hr⟩ : Fin 100000) (⟨(j 1).val, hj1⟩ : Fin 32) := by
    funext a; refine Fin.ext ?_
    match a with
    | ⟨0, _⟩ => show win2_3.index t (0 : Fin 2) * 5000 + 1 * (j 0).val = t.val * 5000 + (j 0).val; omega
    | ⟨1, _⟩ => show win2_3.index t (1 : Fin 2) * 32 + 1 * (j 1).val = (j 1).val; omega
  show k2_pay1 (iblk2 V c 0 t) (iblk2 V c 1 t) (iblk2 V c 2 t) j
    = scaled (V c main_v41) (V c main_v42) (V c main_v43) (((cfg2.win 3).blk t).view.emb j)
  rw [hi, scaled_apply]
  refine (congrArg (k2_pay1 (iblk2 V c 0 t) (iblk2 V c 1 t) (iblk2 V c 2 t)) hj).trans ?_
  refine (pay_apply (iblk2 V c 0 t) (iblk2 V c 1 t) (iblk2 V c 2 t) _ _).trans ?_
  refine congrArg₂ (fun a b : EReal => a + b) (congrArg₂ (fun a b : EReal => a * b) ?_ ?_) ?_
  · exact read0 V c t _ _ rfl rfl
  · exact read1 V c t _ _ rfl rfl
  · exact read2 V c t _

/-! ## The blocks cover the array -/

theorem mem_blk (t : Fin cfg2.N) (i : S100000x32.Idx) :
    i ∈ ((cfg2.win 3).blk t).view.set ↔ ∀ a : Fin 2, win2_3.index t a * S5000x32.size a ≤ (i a).val
      ∧ (i a).val < win2_3.index t a * S5000x32.size a + S5000x32.size a := by
  show i ∈ ((View.whole main_v44).slice (win2_3.rect t)).set ↔ _
  rw [View.set_slice_whole, Rect.mem_set_unit]
  exact Iff.rfl

/-- Row `r` lies in block `r / 5000`. -/
theorem cover (i : S100000x32.Idx) :
    ∃ t : Fin cfg2.N, (cfg2.win 3).flush t = true ∧ i ∈ ((cfg2.win 3).blk t).view.set := by
  have hi0 : (i 0).val < 100000 := idx2_lt0 i
  have hi1 : (i 1).val < 32 := idx2_lt1 i
  have ht : (i 0).val / 5000 < cfg2.N := by rw [show cfg2.N = 20 from N_2]; omega
  refine ⟨⟨(i 0).val / 5000, ht⟩, flush2_3 _, ?_⟩
  rw [mem_blk]
  obtain ⟨-, -, -, -, -, -, e6, e7⟩ := idx_facts ⟨(i 0).val / 5000, ht⟩
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e6]
    show (i 0).val / 5000 * 5000 ≤ (i 0).val ∧ (i 0).val < (i 0).val / 5000 * 5000 + 5000
    omega
  | ⟨1, _⟩ =>
    show win2_3.index ⟨(i 0).val / 5000, ht⟩ (1 : Fin 2) * 32 ≤ (i 1).val
      ∧ (i 1).val < win2_3.index ⟨(i 0).val / 5000, ht⟩ (1 : Fin 2) * 32 + 32
    rw [e7]
    omega

/-- After the last block the result array is `scaled` of the arrays the stage was entered with. -/
theorem final (c : Dev nD) :
    (dat2 (F := Ideal) V c).arrAt 3 cfg2.N = scaled (V c main_v41) (V c main_v42) (V c main_v43) :=
  (dat2 V c).arrAt_eq_of_cover 3 _ (fun t _ => flushed_eq V c t) cover

end Cert.KernelIdeal.Reg2

end
-- ==== Proof.KFlow.lean ====
/-
  The whole program's result as one function of its arguments.

  Between the dense stages the program runs ordinary array operations. From the edge list it builds the source and
  target positions of every edge, with one self-loop per node appended (`srcOf`, `dstOf`); the in-degree of a node is
  the number of edges whose target it is, and a node's factor is the reciprocal square root of its degree, or zero for a
  node of degree zero (`dinvOf`). An aggregation takes, for every edge, the row of a feature array at the edge's source —
  a negative position counted from the end, the position then clamped into the array — and sums, for every node, the
  rows of the edges whose target is that node (`agg64`, `agg32`). The program is
      scaled (agg32 (hidden (agg64 (proj x W₁ D)) D b₁ W₂)) D b₂
  with `D` the column of node factors (`result`), and that is what its result buffer holds at the last boundary
  (`result_eq`): each boundary's contents are read off the chain of segments, a dense stage's result array by the
  stage's whole-array form, a stretch's results by evaluating its operations, every other buffer carried unchanged.
-/
import proofs.«130958_j76905684402542_2_alg».proof.Proof.KReg0
import proofs.«130958_j76905684402542_2_alg».proof.Proof.KReg1
import proofs.«130958_j76905684402542_2_alg».proof.Proof.KReg2
import Idealize.ShloMosaic.Lib.StableHlo.Run

set_option maxRecDepth 16384

noncomputable section

namespace Cert.KernelIdeal.Flow

open Cert.KernelIdeal Cert.KernelIdeal.Gen Idealize.ShloMosaic Idealize.ShloMosaic.TcCoe Idealize.ShloMosaic.ValueIdx Idealize.SL.Sem
open Idealize.ShloMosaic.StableHlo

/-! ## The host operations, as functions -/

/-- Row `which` of the edge list followed by the node numbers `0 … 99999`: one end of every edge and self-loop. -/
def endOf (which : Fin 2 → Nat) (h : S2x1600000.Slices which S1x1600000) (e : IVec S2x1600000 32) : IVec S1700000 32 :=
  concatenate S1700000 0 [⟨S1600000, shapeCast S1600000 (extractStridedSlice S1x1600000 which e h) shapeCasts_S1x1600000_S1600000⟩,
    ⟨S100000, iotaInDim S100000 32 0⟩] concatenates_S1600000_S100000_S1700000_d0

/-- The edges' sources. -/
def srcOf (e : IVec S2x1600000 32) : IVec S1700000 32 := endOf ![0, 0] slices_S2x1600000_S1x1600000_0_0 e
/-- The edges' targets. -/
def dstOf (e : IVec S2x1600000 32) : IVec S1700000 32 := endOf ![1, 0] slices_S2x1600000_S1x1600000_1_0 e

/-- Positions as a column of start indices. -/
def col (d : IVec S1700000 32) : IVec S1700000x1 32 := broadcastInDim S1700000x1 ![0] bcast_S1700000_S1700000x1_0 d

/-- Positions with the negative ones counted from the end, as a column of start indices. -/
def wrapCol (s : IVec S1700000 32) : IVec S1700000x1 32 :=
  col (select (cmpi .slt s (broadcastInDim S1700000 ![] bcast_S_S1700000 (constantI S_ 32 0#32)))
    (addi s (broadcastInDim S1700000 ![] bcast_S_S1700000 (constantI S_ 32 100000#32))) s)

/-- Every node's in-degree: the sum of a one per edge into the node. -/
def degOf (d : IVec S1700000 32) : FVec Ideal S100000 .f32 :=
  Host.scatterAdd scatter_S100000_S1700000x1_S1700000_n_0_0_1
    (broadcastInDim S100000 ![] bcast_S_S100000 (constant S_ .f32 0x00000000#32)) (col d)
    (broadcastInDim S1700000 ![] bcast_S_S1700000 (constant S_ .f32 0x3F800000#32))

/-- Every node's factor: the reciprocal square root of its degree, zero at degree zero. -/
def dinvOf (d : IVec S1700000 32) : FVec Ideal S100000 .f32 :=
  select (cmpf .ogt (degOf d) (broadcastInDim S100000 ![] bcast_S_S100000 (constant S_ .f32 0x00000000#32)))
    (Host.rsqrt (degOf d))
    (broadcastInDim S100000 ![] bcast_S_S100000 (id (constant (F := Ideal) S_ .f32 0x00000000#32)))

/-- A vector as a one-column matrix. -/
def colOf (v : FVec Ideal S100000 .f32) : FVec Ideal S100000x1 .f32 := shapeCast S100000x1 v shapeCasts_S100000_S100000x1

/-- For every node the sum, over the edges into it, of the 64-entry row at the edge's source. -/
def agg64 (g : FVec Ideal S100000x64 .bf16) (s d : IVec S1700000 32) : FVec Ideal S100000x64 .f32 :=
  Host.scatterAdd scatter_S100000x64_S1700000x1_S1700000x64_1_0_0_1
    (broadcastInDim S100000x64 ![] bcast_S_S100000x64 (constant S_ .f32 0x00000000#32)) (col d)
    (extf .f32 (Host.gather gather_S100000x64_S1700000x1_S1700000x64_1_0_n_n_0_1_164 g (wrapCol s)) bitsLt_bf16_f32)

/-- The same for 32-entry rows. -/
def agg32 (g : FVec Ideal S100000x32 .bf16) (s d : IVec S1700000 32) : FVec Ideal S100000x32 .f32 :=
  Host.scatterAdd scatter_S100000x32_S1700000x1_S1700000x32_1_0_0_1
    (broadcastInDim S100000x32 ![] bcast_S_S100000x32 (constant S_ .f32 0x00000000#32)) (col d)
    (extf .f32 (Host.gather gather_S100000x32_S1700000x1_S1700000x32_1_0_n_n_0_1_132 g (wrapCol s)) bitsLt_bf16_f32)

variable (m : (ℓ : Loc nD τ sig) → Buf (Elt Ideal) ℓ) (ρ : Dev nD → PrngReg)

/-! ## The boundary before the first dense stage -/

theorem pre_v3 (c : Dev nD) : W3 m ρ c (Proc.devRef .tc main_v3) = srcOf (m ((c : Thread nD τ).loc main_arg1)) := by
  show StableHlo.after hostOps0_2 (StableHlo.after hostOps0_1 (StableHlo.after hostOps0 (W0 m ρ c))) (Proc.devRef .tc main_v3) = _
  after_results
  rfl

theorem pre_v6 (c : Dev nD) : W3 m ρ c (Proc.devRef .tc main_v6) = dstOf (m ((c : Thread nD τ).loc main_arg1)) := by
  show StableHlo.after hostOps0_2 (StableHlo.after hostOps0_1 (StableHlo.after hostOps0 (W0 m ρ c))) (Proc.devRef .tc main_v6) = _
  after_results
  rfl

theorem pre_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results

theorem pre_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results

theorem pre_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results

theorem pre_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results

theorem pre_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results

/-- After the first stretch: the degrees' comparison with zero, their reciprocal square roots, and the zero. -/
theorem w1_v12 (c : Dev nD) : W1 m ρ c (Proc.devRef .tc main_v12)
    = cmpf .ogt (degOf (dstOf (m ((c : Thread nD τ).loc main_arg1)))) (broadcastInDim S100000 ![] bcast_S_S100000 (constant S_ .f32 0x00000000#32)) := by
  show StableHlo.after hostOps0 (W0 m ρ c) (Proc.devRef .tc main_v12) = _
  after_results
  rfl

theorem w1_v13 (c : Dev nD) : W1 m ρ c (Proc.devRef .tc main_v13) = Host.rsqrt (degOf (dstOf (m ((c : Thread nD τ).loc main_arg1)))) := by
  show StableHlo.after hostOps0 (W0 m ρ c) (Proc.devRef .tc main_v13) = _
  after_results
  rfl

theorem w1_cst (c : Dev nD) : W1 m ρ c (Proc.devRef .tc main_cst_2) = constant (F := Ideal) S_ .f32 0x00000000#32 := by
  show StableHlo.after hostOps0 (W0 m ρ c) (Proc.devRef .tc main_cst_2) = _
  after_results

/-- The selection between them is the node factors. -/
theorem w2_v14 (c : Dev nD) : W2 m ρ c (Proc.devRef .tc main_v14) = dinvOf (dstOf (m ((c : Thread nD τ).loc main_arg1))) := by
  have h : ∀ V1 : Valuation τ sig (Elt Ideal), StableHlo.after hostOps0_1 V1 (Proc.devRef .tc main_v14)
      = select (V1 (Proc.devRef .tc main_v12)) (V1 (Proc.devRef .tc main_v13))
          (broadcastInDim S100000 ![] bcast_S_S100000 (id (V1 (Proc.devRef .tc main_cst_2)))) := by
    intro V1
    after_results
    rfl
  refine (h (W1 m ρ c)).trans ?_
  rw [w1_v12, w1_v13, w1_cst]
  rfl

theorem pre_v14 (c : Dev nD) : W3 m ρ c (Proc.devRef .tc main_v14) = dinvOf (dstOf (m ((c : Thread nD τ).loc main_arg1))) := by
  have h : ∀ V2 : Valuation τ sig (Elt Ideal), StableHlo.after hostOps0_2 V2 (Proc.devRef .tc main_v14)
      = V2 (Proc.devRef .tc main_v14) := by
    intro V2
    after_results
  exact (h (W2 m ρ c)).trans (w2_v14 m ρ c)

theorem pre_v15 (c : Dev nD) : W3 m ρ c (Proc.devRef .tc main_v15) = colOf (dinvOf (dstOf (m ((c : Thread nD τ).loc main_arg1)))) := by
  have h : ∀ V2 : Valuation τ sig (Elt Ideal), StableHlo.after hostOps0_2 V2 (Proc.devRef .tc main_v15)
      = colOf (V2 (Proc.devRef .tc main_v14)) := by
    intro V2
    after_results
    rfl
  refine (h (W2 m ρ c)).trans ?_
  rw [w2_v14]

/-! ## Carried through the first dense stage -/

theorem at4_v3 (c : Dev nD) : W4 m ρ c (Proc.devRef .tc main_v3) = srcOf (m ((c : Thread nD τ).loc main_arg1)) :=
  (W4_of_ne m ρ c main_v3 (by decide)).trans (pre_v3 m ρ c)

theorem at4_v6 (c : Dev nD) : W4 m ρ c (Proc.devRef .tc main_v6) = dstOf (m ((c : Thread nD τ).loc main_arg1)) :=
  (W4_of_ne m ρ c main_v6 (by decide)).trans (pre_v6 m ρ c)

theorem at4_v14 (c : Dev nD) : W4 m ρ c (Proc.devRef .tc main_v14) = dinvOf (dstOf (m ((c : Thread nD τ).loc main_arg1))) :=
  (W4_of_ne m ρ c main_v14 (by decide)).trans (pre_v14 m ρ c)

theorem at4_arg3 (c : Dev nD) : W4 m ρ c (Proc.devRef .tc main_arg3) = m ((c : Thread nD τ).loc main_arg3) :=
  (W4_of_ne m ρ c main_arg3 (by decide)).trans (pre_arg3 m ρ c)

theorem at4_arg4 (c : Dev nD) : W4 m ρ c (Proc.devRef .tc main_arg4) = m ((c : Thread nD τ).loc main_arg4) :=
  (W4_of_ne m ρ c main_arg4 (by decide)).trans (pre_arg4 m ρ c)

theorem at4_arg5 (c : Dev nD) : W4 m ρ c (Proc.devRef .tc main_arg5) = m ((c : Thread nD τ).loc main_arg5) :=
  (W4_of_ne m ρ c main_arg5 (by decide)).trans (pre_arg5 m ρ c)

/-- The first dense stage leaves the scaled projection of the features. -/
theorem at4_v16 (c : Dev nD) : W4 m ρ c (Proc.devRef .tc main_v16) = Reg0.proj (m ((c : Thread nD τ).loc main_arg0)) (m ((c : Thread nD τ).loc main_arg2)) (colOf (dinvOf (dstOf (m ((c : Thread nD τ).loc main_arg1))))) := by
  refine (W4_arr m ρ c 3).trans ((Reg0.final (V3 m ρ) c).trans ?_)
  show Reg0.proj (W3 m ρ c (Proc.devRef .tc main_arg0)) (W3 m ρ c (Proc.devRef .tc main_arg2)) (W3 m ρ c (Proc.devRef .tc main_v15)) = _
  rw [pre_arg0, pre_arg2, pre_v15]

/-! ## The stretch between the first and the second dense stage -/

theorem at5_v3 (c : Dev nD) : W5 m ρ c (Proc.devRef .tc main_v3) = srcOf (m ((c : Thread nD τ).loc main_arg1)) :=
  (show StableHlo.after hostOps1 (W4 m ρ c) (Proc.devRef .tc main_v3) = W4 m ρ c (Proc.devRef .tc main_v3) by after_results).trans
    (at4_v3 m ρ c)

theorem at5_v6 (c : Dev nD) : W5 m ρ c (Proc.devRef .tc main_v6) = dstOf (m ((c : Thread nD τ).loc main_arg1)) :=
  (show StableHlo.after hostOps1 (W4 m ρ c) (Proc.devRef .tc main_v6) = W4 m ρ c (Proc.devRef .tc main_v6) by after_results).trans
    (at4_v6 m ρ c)

theorem at5_v14 (c : Dev nD) : W5 m ρ c (Proc.devRef .tc main_v14) = dinvOf (dstOf (m ((c : Thread nD τ).loc main_arg1))) :=
  (show StableHlo.after hostOps1 (W4 m ρ c) (Proc.devRef .tc main_v14) = W4 m ρ c (Proc.devRef .tc main_v14) by after_results).trans
    (at4_v14 m ρ c)

theorem at5_arg4 (c : Dev nD) : W5 m ρ c (Proc.devRef .tc main_arg4) = m ((c : Thread nD τ).loc main_arg4) :=
  (show StableHlo.after hostOps1 (W4 m ρ c) (Proc.devRef .tc main_arg4) = W4 m ρ c (Proc.devRef .tc main_arg4) by after_results).trans
    (at4_arg4 m ρ c)

theorem at5_arg5 (c : Dev nD) : W5 m ρ c (Proc.devRef .tc main_arg5) = m ((c : Thread nD τ).loc main_arg5) :=
  (show StableHlo.after hostOps1 (W4 m ρ c) (Proc.devRef .tc main_arg5) = W4 m ρ c (Proc.devRef .tc main_arg5) by after_results).trans
    (at4_arg5 m ρ c)

theorem at5_v27 (c : Dev nD) : W5 m ρ c (Proc.devRef .tc main_v27) = agg64 (Reg0.proj (m ((c : Thread nD τ).loc main_arg0)) (m ((c : Thread nD τ).loc main_arg2)) (colOf (dinvOf (dstOf (m ((c : Thread nD τ).loc main_arg1)))))) (srcOf (m ((c : Thread nD τ).loc main_arg1))) (dstOf (m ((c : Thread nD τ).loc main_arg1))) := by
  have h : W5 m ρ c (Proc.devRef .tc main_v27)
      = agg64 (W4 m ρ c (Proc.devRef .tc main_v16)) (W4 m ρ c (Proc.devRef .tc main_v3)) (W4 m ρ c (Proc.devRef .tc main_v6)) := by
    show StableHlo.after hostOps1 (W4 m ρ c) (Proc.devRef .tc main_v27) = _
    after_results
    rfl
  rw [h, at4_v16, at4_v3, at4_v6]

theorem at5_v28 (c : Dev nD) : W5 m ρ c (Proc.devRef .tc main_v28) = colOf (dinvOf (dstOf (m ((c : Thread nD τ).loc main_arg1)))) := by
  have h : W5 m ρ c (Proc.devRef .tc main_v28) = colOf (W4 m ρ c (Proc.devRef .tc main_v14)) := by
    show StableHlo.after hostOps1 (W4 m ρ c) (Proc.devRef .tc main_v28) = _
    after_results
    rfl
  rw [h, at4_v14]

theorem at5_v29 (c : Dev nD) : W5 m ρ c (Proc.devRef .tc main_v29)
    = shapeCast S1x64 (m ((c : Thread nD τ).loc main_arg3)) shapeCasts_S64_S1x64 := by
  have h : W5 m ρ c (Proc.devRef .tc main_v29) = shapeCast S1x64 (W4 m ρ c (Proc.devRef .tc main_arg3)) shapeCasts_S64_S1x64 := by
    show StableHlo.after hostOps1 (W4 m ρ c) (Proc.devRef .tc main_v29) = _
    after_results
    rfl
  rw [h, at4_arg3]

/-! ## Through the second dense stage -/

theorem at6_v3 (c : Dev nD) : W6 m ρ c (Proc.devRef .tc main_v3) = srcOf (m ((c : Thread nD τ).loc main_arg1)) :=
  (W6_of_ne m ρ c main_v3 (by decide)).trans (at5_v3 m ρ c)

theorem at6_v6 (c : Dev nD) : W6 m ρ c (Proc.devRef .tc main_v6) = dstOf (m ((c : Thread nD τ).loc main_arg1)) :=
  (W6_of_ne m ρ c main_v6 (by decide)).trans (at5_v6 m ρ c)

theorem at6_v14 (c : Dev nD) : W6 m ρ c (Proc.devRef .tc main_v14) = dinvOf (dstOf (m ((c : Thread nD τ).loc main_arg1))) :=
  (W6_of_ne m ρ c main_v14 (by decide)).trans (at5_v14 m ρ c)

theorem at6_arg5 (c : Dev nD) : W6 m ρ c (Proc.devRef .tc main_arg5) = m ((c : Thread nD τ).loc main_arg5) :=
  (W6_of_ne m ρ c main_arg5 (by decide)).trans (at5_arg5 m ρ c)

/-- The second dense stage leaves the scaled second projection of the rectified first layer. -/
theorem at6_v30 (c : Dev nD) : W6 m ρ c (Proc.devRef .tc main_v30) = Reg1.hidden (agg64 (Reg0.proj (m ((c : Thread nD τ).loc main_arg0)) (m ((c : Thread nD τ).loc main_arg2)) (colOf (dinvOf (dstOf (m ((c : Thread nD τ).loc main_arg1)))))) (srcOf (m ((c : Thread nD τ).loc main_arg1))) (dstOf (m ((c : Thread nD τ).loc main_arg1)))) (colOf (dinvOf (dstOf (m ((c : Thread nD τ).loc main_arg1))))) (shapeCast S1x64 (m ((c : Thread nD τ).loc main_arg3)) shapeCasts_S64_S1x64) (m ((c : Thread nD τ).loc main_arg4)) := by
  refine (W6_arr m ρ c 4).trans ((Reg1.final (V5 m ρ) c).trans ?_)
  show Reg1.hidden (W5 m ρ c (Proc.devRef .tc main_v27)) (W5 m ρ c (Proc.devRef .tc main_v28)) (W5 m ρ c (Proc.devRef .tc main_v29))
    (W5 m ρ c (Proc.devRef .tc main_arg4)) = _
  rw [at5_v27, at5_v28, at5_v29, at5_arg4]

/-! ## The stretch before the last dense stage, and the last dense stage -/

theorem at7_v41 (c : Dev nD) : W7 m ρ c (Proc.devRef .tc main_v41) = agg32 (Reg1.hidden (agg64 (Reg0.proj (m ((c : Thread nD τ).loc main_arg0)) (m ((c : Thread nD τ).loc main_arg2)) (colOf (dinvOf (dstOf (m ((c : Thread nD τ).loc main_arg1)))))) (srcOf (m ((c : Thread nD τ).loc main_arg1))) (dstOf (m ((c : Thread nD τ).loc main_arg1)))) (colOf (dinvOf (dstOf (m ((c : Thread nD τ).loc main_arg1))))) (shapeCast S1x64 (m ((c : Thread nD τ).loc main_arg3)) shapeCasts_S64_S1x64) (m ((c : Thread nD τ).loc main_arg4))) (srcOf (m ((c : Thread nD τ).loc main_arg1))) (dstOf (m ((c : Thread nD τ).loc main_arg1))) := by
  have h : W7 m ρ c (Proc.devRef .tc main_v41)
      = agg32 (W6 m ρ c (Proc.devRef .tc main_v30)) (W6 m ρ c (Proc.devRef .tc main_v3)) (W6 m ρ c (Proc.devRef .tc main_v6)) := by
    show StableHlo.after hostOps2 (W6 m ρ c) (Proc.devRef .tc main_v41) = _
    after_results
    rfl
  rw [h, at6_v30, at6_v3, at6_v6]

theorem at7_v42 (c : Dev nD) : W7 m ρ c (Proc.devRef .tc main_v42) = colOf (dinvOf (dstOf (m ((c : Thread nD τ).loc main_arg1)))) := by
  have h : W7 m ρ c (Proc.devRef .tc main_v42) = colOf (W6 m ρ c (Proc.devRef .tc main_v14)) := by
    show StableHlo.after hostOps2 (W6 m ρ c) (Proc.devRef .tc main_v42) = _
    after_results
    rfl
  rw [h, at6_v14]

theorem at7_v43 (c : Dev nD) : W7 m ρ c (Proc.devRef .tc main_v43)
    = shapeCast S1x32 (m ((c : Thread nD τ).loc main_arg5)) shapeCasts_S32_S1x32 := by
  have h : W7 m ρ c (Proc.devRef .tc main_v43) = shapeCast S1x32 (W6 m ρ c (Proc.devRef .tc main_arg5)) shapeCasts_S32_S1x32 := by
    show StableHlo.after hostOps2 (W6 m ρ c) (Proc.devRef .tc main_v43) = _
    after_results
    rfl
  rw [h, at6_arg5]

/-- The program's result as one function of its six arguments. -/
def result (x : FVec Ideal S100000x64 .f32) (e : IVec S2x1600000 32) (w1 : FVec Ideal S64x64 .f32) (b1 : FVec Ideal S64 .f32)
    (w2 : FVec Ideal S64x32 .f32) (b2 : FVec Ideal S32 .f32) : S100000x32.Idx → Elt Ideal .f32 :=
  Reg2.scaled
    (agg32 (Reg1.hidden (agg64 (Reg0.proj x w1 (colOf (dinvOf (dstOf e)))) (srcOf e) (dstOf e)) (colOf (dinvOf (dstOf e)))
      (shapeCast S1x64 b1 shapeCasts_S64_S1x64) w2) (srcOf e) (dstOf e))
    (colOf (dinvOf (dstOf e))) (shapeCast S1x32 b2 shapeCasts_S32_S1x32)

/-- At the last boundary the result buffer holds `result` of the arguments as launched. -/
theorem result_eq (c : Dev nD) : W8 m ρ c (Proc.devRef .tc main_v44)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W8_arr m ρ c 3).trans ((Reg2.final (V7 m ρ) c).trans ?_)
  show Reg2.scaled (W7 m ρ c (Proc.devRef .tc main_v41)) (W7 m ρ c (Proc.devRef .tc main_v42)) (W7 m ρ c (Proc.devRef .tc main_v43)) = _
  rw [at7_v41, at7_v42, at7_v43]
  rfl

end Cert.KernelIdeal.Flow

end
-- ==== Proof.LibIsReal.lean ====
/-
  Extended reals that are real numbers, and a real weight moved across absolute differences.

  `IsReal x` says the extended real `x` is (the image of) a real number. Real numbers are closed under sums,
  differences, the absolute value taken as the larger of `x` and `-x` (`absE`), and finite sums (`isReal_sum`), so a
  quantity built from real pieces by these operations stays away from both infinities, where the extended reals do
  not distribute. For real `A B C D w` (`weighted_abs`):
    |A w - B w| + |C w - D w| = |w| (|A - B| + |C - D|).
  Nothing here mentions a program: the file depends on Mathlib's extended reals only.
-/
import Mathlib.Data.EReal.Basic
import Mathlib.Data.EReal.Operations
import Mathlib.Algebra.BigOperators.Group.Finset.Basic
import Mathlib.Algebra.Order.AbsoluteValue.Basic
import Mathlib.Tactic.Ring

noncomputable section

namespace Cert.EdgeLoss

/-- The absolute value as both programs take it: the larger of `x` and `-x`. -/
def absE (x : EReal) : EReal := max x (-x)

/-- An extended real that is a real number. -/
def IsReal (x : EReal) : Prop := ∃ r : ℝ, x = (r : EReal)

theorem isReal_zero : IsReal 0 := ⟨0, EReal.coe_zero.symm⟩

/-- The inclusion of the reals is monotone, so it commutes with the larger of two numbers. -/
theorem coe_max (a b : ℝ) : ((max a b : ℝ) : EReal) = max (a : EReal) (b : EReal) :=
  EReal.coe_strictMono.monotone.map_max

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.absE {x : EReal} (hx : IsReal x) : IsReal (absE x) := by
  obtain ⟨a, rfl⟩ := hx
  exact ⟨max a (-a), by rw [Cert.EdgeLoss.absE, coe_max, EReal.coe_neg]⟩

theorem isReal_sum {ι : Type} (s : Finset ι) (f : ι → EReal) (hf : ∀ i ∈ s, IsReal (f i)) : IsReal (∑ i ∈ s, f i) := by
  classical
  induction s using Finset.induction_on with
  | empty => rw [Finset.sum_empty]; exact isReal_zero
  | insert a s ha ih =>
    rw [Finset.sum_insert ha]
    exact (hf a (Finset.mem_insert_self a s)).add (ih fun i hi => hf i (Finset.mem_insert_of_mem hi))

/-! ## A finite weight moves across the differences -/

/-- For real numbers, |A w - B w| + |C w - D w| = |w| (|A - B| + |C - D|): the reference weights each structure
    before it subtracts, the kernel weights the sum of the two absolute differences. -/
theorem weighted_abs {A B C D w : EReal} (hA : IsReal A) (hB : IsReal B) (hC : IsReal C) (hD : IsReal D) (hw : IsReal w) :
    absE (A * w - B * w) + absE (C * w - D * w) = absE w * (absE (A - B) + absE (C - D)) := by
  obtain ⟨a, rfl⟩ := hA; obtain ⟨b, rfl⟩ := hB; obtain ⟨c, rfl⟩ := hC; obtain ⟨d, rfl⟩ := hD; obtain ⟨v, rfl⟩ := hw
  simp only [absE, ← EReal.coe_mul, ← EReal.coe_sub, ← EReal.coe_neg, ← coe_max, ← EReal.coe_add]
  refine congrArg _ ?_
  simp only [← abs_eq_max_neg]
  rw [← sub_mul, ← sub_mul, abs_mul, abs_mul]
  ring

end Cert.EdgeLoss

end
-- ==== Proof.LibGcnFold.lean ====
/-
  The normalisation of a graph convolution folded into its two ends, on the extended reals.

  A graph convolution sums, for a node `r`, the features of the edges `e` into `r`, each weighted by the product of the
  factor of the edge's source and the factor of its target. The target's factor is the same for every edge of the sum,
  so it may be applied once, after the sum, and the source's factor may be applied to the features before they are
  summed:
      (0 + ∑ₑ a e · d e) · D = 0 + ∑ₑ a e · (d e · D' e)        when D' e = D for every edge e of the sum.
  On the extended reals a product does not distribute over a sum at an infinity, so the identity is stated for terms that
  are real numbers (`IsReal`); real numbers are closed under the operations a layer is built from: sums, products, the
  larger of two numbers. Nothing here mentions a program.
-/
import Mathlib.Data.EReal.Basic
import Mathlib.Data.EReal.Operations
import Mathlib.Algebra.BigOperators.Ring.Finset
import Mathlib.Tactic.Ring
import Mathlib.Tactic.Choose
import proofs.«130958_j76905684402542_2_alg».proof.Proof.LibIsReal

noncomputable section

open scoped BigOperators

namespace Cert.Gcn

open Cert.EdgeLoss

/-- The product of two real numbers is a real number. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The inclusion of the reals commutes with finite sums. -/
theorem coe_finset_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The larger of two real numbers is a real number. -/
theorem IsReal.max {x y : EReal} (hx : IsReal x) (hy : IsReal y) : IsReal (max x y) := by
  obtain ⟨a, rfl⟩ := hx; obtain ⟨b, rfl⟩ := hy; exact ⟨Max.max a b, (coe_max a b).symm⟩

/-- A finite sum of products of real numbers is a real number. -/
theorem isReal_sum_mul {ι : Type} (s : Finset ι) (a b : ι → EReal) (ha : ∀ i, IsReal (a i)) (hb : ∀ i, IsReal (b i)) :
    IsReal (∑ i ∈ s, a i * b i) :=
  isReal_sum s _ fun i _ => IsReal.mul (ha i) (hb i)

/-- Zero plus a finite sum of real numbers is a real number. -/
theorem isReal_zero_add_sum {ι : Type} (s : Finset ι) (f : ι → EReal) (hf : ∀ i, IsReal (f i)) :
    IsReal (0 + ∑ i ∈ s, f i) :=
  isReal_zero.add (isReal_sum s f fun i _ => hf i)

/-- The target's factor moves out of the sum over the edges into one node, the source's factor stays with the term. -/
theorem fold_factor {ι : Type} (s : Finset ι) (a d D' : ι → EReal) (D : EReal) (ha : ∀ e, IsReal (a e))
    (hd : ∀ e, IsReal (d e)) (hD : IsReal D) (hD' : ∀ e ∈ s, D' e = D) :
    (0 + ∑ e ∈ s, a e * d e) * D = 0 + ∑ e ∈ s, a e * (d e * D' e) := by
  rw [zero_add, zero_add]
  choose a' ha' using ha
  choose d' hd' using hd
  obtain ⟨D0, rfl⟩ := hD
  have h1 : ∀ e ∈ s, a e * (d e * D' e) = ((a' e * (d' e * D0) : ℝ) : EReal) := fun e he => by
    rw [hD' e he, ha' e, hd' e, EReal.coe_mul, EReal.coe_mul]
  have h2 : ∀ e ∈ s, a e * d e = ((a' e * d' e : ℝ) : EReal) := fun e _ => by
    rw [ha' e, hd' e, EReal.coe_mul]
  rw [Finset.sum_congr rfl h1, Finset.sum_congr rfl h2, ← coe_finset_sum, ← coe_finset_sum, ← EReal.coe_mul, Finset.sum_mul]
  refine congrArg _ (Finset.sum_congr rfl fun e _ => ?_)
  ring

/-! ## Two layers, the normalisation folded or spelt out -/

section Layers

variable {ν ε : Type} {A B C : Nat}
variable (into : ν → Finset ε) (src tgt : ε → ν) (dinv : ν → EReal)

/-- Folded: the rows are already scaled at their source; they are summed over the edges into `n` and the sum is scaled
    by `n`'s factor. -/
def aggThenScale (g : ν → EReal) (n : ν) : EReal := (0 + ∑ j ∈ into n, g (src j)) * dinv n

/-- Spelt out: every edge's row is weighted by the product of its two ends' factors, then summed. -/
def aggWeighted (h : ν → EReal) (n : ν) : EReal := 0 + ∑ j ∈ into n, h (src j) * (dinv (src j) * dinv (tgt j))

variable (hd : ∀ n, IsReal (dinv n)) (ht : ∀ n, ∀ j ∈ into n, tgt j = n)

include hd ht in
/-- The two aggregations agree on real features. -/
theorem aggThenScale_eq (h : ν → EReal) (hh : ∀ n, IsReal (h n)) (n : ν) :
    aggThenScale into src dinv (fun n' => h n' * dinv n') n = aggWeighted into src tgt dinv h n :=
  fold_factor (into n) (fun j => h (src j)) (fun j => dinv (src j)) (fun j => dinv (tgt j)) (dinv n)
    (fun j => hh _) (fun j => hd _) (hd n) (fun j hj => by rw [ht n j hj])

include hd in
theorem isReal_aggWeighted (h : ν → EReal) (hh : ∀ n, IsReal (h n)) (n : ν) : IsReal (aggWeighted into src tgt dinv h n) :=
  isReal_zero_add_sum _ _ fun j => IsReal.mul (hh _) (IsReal.mul (hd _) (hd _))

variable (x : ν → Fin A → EReal) (w1 : Fin A → Fin B → EReal) (b1 : Fin B → EReal) (w2 : Fin B → Fin C → EReal)
  (b2 : Fin C → EReal) (z : EReal)

/-- Two layers with the normalisation folded into each layer's two ends: project and scale, aggregate and scale, add the
    bias and rectify, project and scale, aggregate and scale, add the bias. -/
def foldedOut (r : ν) (q : Fin C) : EReal :=
  aggThenScale into src dinv
    (fun n => (∑ k, max (aggThenScale into src dinv (fun n' => (∑ i, x n' i * w1 i k) * dinv n') n + b1 k) z * w2 k q) * dinv n) r
    + b2 q

/-- Two layers with every edge weighted by its normalisation. -/
def weightedOut (r : ν) (q : Fin C) : EReal :=
  aggWeighted into src tgt dinv
    (fun n => ∑ k, max (aggWeighted into src tgt dinv (fun n' => ∑ i, x n' i * w1 i k) n + b1 k) z * w2 k q) r
    + b2 q

include hd ht in
/-- On real inputs the two spellings of the two layers agree. -/
theorem foldedOut_eq_weightedOut (hx : ∀ n i, IsReal (x n i)) (hw1 : ∀ i k, IsReal (w1 i k)) (hb1 : ∀ k, IsReal (b1 k))
    (hw2 : ∀ k q, IsReal (w2 k q)) (hz : IsReal z) (r : ν) (q : Fin C) :
    foldedOut into src dinv x w1 b1 w2 b2 z r q = weightedOut into src tgt dinv x w1 b1 w2 b2 z r q := by
  unfold foldedOut weightedOut
  have h1 : ∀ k n, aggThenScale into src dinv (fun n' => (∑ i, x n' i * w1 i k) * dinv n') n
      = aggWeighted into src tgt dinv (fun n' => ∑ i, x n' i * w1 i k) n := fun k n =>
    aggThenScale_eq into src tgt dinv hd ht (fun n' => ∑ i, x n' i * w1 i k)
      (fun n' => isReal_sum_mul _ _ _ (fun i => hx n' i) (fun i => hw1 i k)) n
  simp only [h1]
  refine congrArg (fun t => t + b2 q) ?_
  exact aggThenScale_eq into src tgt dinv hd ht
    (fun n => ∑ k, max (aggWeighted into src tgt dinv (fun n' => ∑ i, x n' i * w1 i k) n + b1 k) z * w2 k q)
    (fun n => isReal_sum_mul _ _ _
      (fun k => IsReal.max ((isReal_aggWeighted into src tgt dinv hd _
        (fun n' => isReal_sum_mul _ _ _ (fun i => hx n' i) (fun i => hw1 i k)) n).add (hb1 k)) hz)
      (fun k => hw2 k q)) r

end Layers

end Cert.Gcn

end
-- ==== Proof.LibTakeSegment.lean ====
/-
  GATHER OF ROWS AND SEGMENT SUM, READ AT AN INDEX.

  Taking the rows of an array at integer positions, `x[idx]`, is a `stablehlo.gather` whose start indices form an
  `[M, 1]` array: result row `e` is the operand's row at the start index `idx[e, 0]`, read as a signed integer and
  clamped into `[0, N − 1]`. Summing rows by segment is a `stablehlo.scatter` with an addition body over the same
  `[M, 1]` array of indices: operand row `i` receives the sum of the update rows `e` whose index `idx[e, 0]`, read
  signed and NOT clamped, equals `i`; an update whose index falls outside `[0, N)` lands nowhere.

  This file states both for a rank-1 operand (a vector of `N` entries) and for a rank-2 operand (`N` rows of `D`
  entries), for every `N`, `M`, `D` and every index width. The dimension numbers are records built from a proof of
  their side conditions, so that a program's literal record is definitionally the record here at that program's proof.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Idealize.ShloMosaic.TakeSegment

open Idealize.ShloMosaic
open Idealize.ShloMosaic.ValueIdx

/-! ## `stablehlo.gather` at an `[M, 1]` array of start indices -/

section Gather
variable {α : Type}

/-- The dimension numbers of `x[idx]` for a vector `x : [N]` and start indices `[M, 1]`: the one operand axis is
    collapsed and indexed by the start index, the result `[M]` has no offset axis. -/
abbrev vecTakeDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The gather of a vector read at `e`: the operand at the start index `idx[e, 0]`, read signed and clamped into
    `[0, N − 1]`. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecTakeDims N M wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecTakeDims N M wf).start (ix1 e) idx 0 + (vecTakeDims N M wf).batchCoord (ix1 e) 0
      + (vecTakeDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTakeDims N M wf).startIndexMap from List.mem_singleton.mpr rfl)]
  have hsi : (vecTakeDims N M wf).siIdx (ix1 e) ⟨List.idxOf (0 : Fin 1) (vecTakeDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of `x[idx]` for a matrix `x : [N, D]` and start indices `[M, 1]`: the row axis is collapsed
    and indexed by the start index, the column axis is the result's one offset axis, taken whole. -/
abbrev rowTakeDims (N M D : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- The gather of rows read at `(e, q)`: entry `q` of the operand's row at the start index `idx[e, 0]`, read signed
    and clamped into `[0, N − 1]`. -/
theorem gather_rows_apply {N M D w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (q : Fin D) :
    Host.gather (rowTakeDims N M D wf) x idx (ix2 e q)
      = x (ix2 ⟨min (idx (ix2 e (0 : Fin 1))).toInt.toNat (N - 1), by omega⟩ q) := by
  unfold Host.gather
  congr 1
  funext a
  refine Fin.ext ?_
  show (rowTakeDims N M D wf).start (ix2 e q) idx a + (rowTakeDims N M D wf).batchCoord (ix2 e q) a
      + (rowTakeDims N M D wf).offCoord (ix2 e q) a = _
  rw [GatherDims.batchCoord_eq_zero _ _ _ List.not_mem_nil]
  match a with
  | ⟨0, _⟩ =>
    show (rowTakeDims N M D wf).start (ix2 e q) idx (0 : Fin 2) + 0
      + (rowTakeDims N M D wf).offCoord (ix2 e q) (0 : Fin 2) = _
    rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowTakeDims N M D wf).startIndexMap from List.mem_singleton.mpr rfl)]
    have hsi : (rowTakeDims N M D wf).siIdx (ix2 e q) ⟨List.idxOf (0 : Fin 2) (rowTakeDims N M D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    have hs : (rowTakeDims N M D wf).start (ix2 e q) idx (1 : Fin 2) = 0 := by
      unfold GatherDims.start
      rw [dif_neg (show (1 : Fin 2) ∉ (rowTakeDims N M D wf).startIndexMap from
        fun h => absurd (List.mem_singleton.mp h) (show (1 : Fin 2) ≠ 0 by decide))]
    show (rowTakeDims N M D wf).start (ix2 e q) idx (1 : Fin 2) + 0
      + (rowTakeDims N M D wf).offCoord (ix2 e q) (1 : Fin 2) = _
    rw [hs]
    simp only [Nat.add_zero, Nat.zero_add]
    rfl

end Gather

/-! ## The operand index an update of a scatter lands on -/

section ResultIdx

/-- An update lands on operand index `i` exactly when, on every operand axis, its start index plus its window
    coordinate is `i`'s coordinate: the sum is then in range on every axis, and is `i`. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hf a
      subst hf
      exact (Int.toNat_of_nonneg (h a).1).symm
    · intro hall
      funext a
      refine Fin.ext ?_
      show (d.start j idx a + (d.window j a : Int)).toNat = (i a).val
      rw [hall a]
      exact Int.toNat_natCast _
  · rename_i h
    constructor
    · intro hf
      exact absurd hf (by simp)
    · intro hall
      exfalso
      apply h
      intro a
      rw [hall a]
      exact ⟨Int.natCast_nonneg _, by exact_mod_cast (i a).isLt⟩

/-- An operand axis keeps a window coordinate exactly when it is not an inserted axis. -/
theorem mem_sKept {s si u : Shape} (d : ScatterDims s si u) (a : Fin s.rank) :
    a ∈ d.sKept ↔ a ∉ d.insertedWindowDims := by
  simp [ScatterDims.sKept, Shape.kept, List.mem_filter, List.mem_finRange]

/-- A rank-1 index set is its one coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {A : Type*} [AddCommMonoid A] {n : Nat} (f : (⟨1, ![n]⟩ : Shape).Idx → A) :
    ∑ j, f j = ∑ a : Fin n, f (ix1 a) := by
  rw [← Equiv.sum_comp (idxEquiv1 (n := n)).symm f]
  rfl

end ResultIdx

/-! ## `stablehlo.scatter` with an addition body at an `[M, 1]` array of indices: a vector operand -/

section VecSeg

/-- The dimension numbers of a segment sum into a vector `[N]` from updates `[M]` at indices `[M, 1]`: the one
    operand axis is inserted and indexed by the scatter index, the updates have no window axis. -/
abbrev vecSegDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section
variable {N M w : Nat} (wf : ScatterDims.WF ⟨1, ![N]⟩ ⟨2, ![M, 1]⟩ ⟨1, ![M]⟩ [] [0] [0] 1)
  (idx : IVec ⟨2, ![M, 1]⟩ w)

/-- Update `e` starts at its index `idx[e, 0]`, read signed. -/
theorem vecSeg_start (e : Fin M) :
    (vecSegDims N M wf).start (ix1 e) idx (0 : Fin 1) = (idx (ix2 e (0 : Fin 1))).toInt := by
  unfold ScatterDims.start
  rw [dif_pos (show (0 : Fin 1) ∈ (vecSegDims N M wf).scatterDimsToOperandDims from List.mem_singleton.mpr rfl)]
  have hsi : (vecSegDims N M wf).siIdx (ix1 e) ⟨List.idxOf (0 : Fin 1) (vecSegDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- It has no window coordinate: the one operand axis is inserted. -/
theorem vecSeg_window (e : Fin M) : (vecSegDims N M wf).window (ix1 e) (0 : Fin 1) = 0 := by
  unfold ScatterDims.window
  rw [dif_neg (fun h => ((mem_sKept _ _).mp h) (List.mem_singleton.mpr rfl))]

/-- Update `e` lands on operand entry `i` exactly when its index `idx[e, 0]`, read signed, is `i`. -/
theorem vecSeg_resultIdx?_iff (e : Fin M) (i : Fin N) :
    (vecSegDims N M wf).resultIdx? (ix1 e) idx = some (ix1 i)
      ↔ (idx (ix2 e (0 : Fin 1))).toInt = (i.val : Int) := by
  rw [resultIdx?_eq_some_iff]
  constructor
  · intro h
    have h0 := h (0 : Fin 1)
    rw [vecSeg_start, vecSeg_window] at h0
    simpa using h0
  · intro h a
    obtain rfl : a = 0 := Subsingleton.elim _ _
    rw [vecSeg_start, vecSeg_window]
    simp only [Nat.cast_zero, add_zero]
    exact h

end

/-- The segment sum into a vector read at `i`: the operand's entry plus the sum of the updates whose index
    `idx[e, 0]`, read signed, is `i`. An update whose index is negative or at least `N` is in no such sum. -/
theorem scatterAdd_vec_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Ideal.hostScatterAdd (vecSegDims N M wf) x idx upd (ix1 i)
      = x (ix1 i) + ∑ e ∈ Finset.univ.filter (fun e : Fin M => (idx (ix2 e (0 : Fin 1))).toInt = (i.val : Int)),
          upd (ix1 e) := by
  unfold Ideal.hostScatterAdd
  congr 1
  rw [Finset.sum_filter, Finset.sum_filter, sum_idx1]
  refine Finset.sum_congr rfl fun e _ => ?_
  exact if_congr (vecSeg_resultIdx?_iff wf idx e i) rfl rfl

end VecSeg

/-! ## The same scatter with a matrix operand: rows of `D` entries -/

section RowSeg

/-- The dimension numbers of a segment sum into a matrix `[N, D]` from updates `[M, D]` at indices `[M, 1]`: the
    row axis is inserted and indexed by the scatter index, the updates' column axis is their one window axis and goes
    to the operand's column axis. -/
abbrev rowSegDims (N M D : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

section
variable {N M D w : Nat} (wf : ScatterDims.WF ⟨2, ![N, D]⟩ ⟨2, ![M, 1]⟩ ⟨2, ![M, D]⟩ [1] [0] [0] 1)
  (idx : IVec ⟨2, ![M, 1]⟩ w)

/-- On the row axis update `(e, p)` starts at its index `idx[e, 0]`, read signed … -/
theorem rowSeg_start0 (e : Fin M) (p : Fin D) :
    (rowSegDims N M D wf).start (ix2 e p) idx (0 : Fin 2) = (idx (ix2 e (0 : Fin 1))).toInt := by
  unfold ScatterDims.start
  rw [dif_pos (show (0 : Fin 2) ∈ (rowSegDims N M D wf).scatterDimsToOperandDims from List.mem_singleton.mpr rfl)]
  have hsi : (rowSegDims N M D wf).siIdx (ix2 e p) ⟨List.idxOf (0 : Fin 2) (rowSegDims N M D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at `0`: the scatter index does not name that axis. -/
theorem rowSeg_start1 (e : Fin M) (p : Fin D) : (rowSegDims N M D wf).start (ix2 e p) idx (1 : Fin 2) = 0 := by
  unfold ScatterDims.start
  rw [dif_neg (fun h => absurd (List.mem_singleton.mp h) (show (1 : Fin 2) ≠ 0 by decide))]

/-- It has no window coordinate on the row axis, which is inserted … -/
theorem rowSeg_window0 (e : Fin M) (p : Fin D) : (rowSegDims N M D wf).window (ix2 e p) (0 : Fin 2) = 0 := by
  unfold ScatterDims.window
  rw [dif_neg (fun h => ((mem_sKept _ _).mp h) (List.mem_singleton.mpr rfl))]

/-- … and its own column `p` on the column axis. -/
theorem rowSeg_window1 (e : Fin M) (p : Fin D) : (rowSegDims N M D wf).window (ix2 e p) (1 : Fin 2) = p.val := by
  unfold ScatterDims.window
  rw [dif_pos ((mem_sKept _ _).mpr
    (fun h => absurd (List.mem_singleton.mp h) (show (1 : Fin 2) ≠ 0 by decide)))]
  rfl

/-- Update `(e, p)` lands on operand entry `(i, q)` exactly when its index `idx[e, 0]`, read signed, is `i` and its
    column is `q`. -/
theorem rowSeg_resultIdx?_iff (e : Fin M) (p : Fin D) (i : Fin N) (q : Fin D) :
    (rowSegDims N M D wf).resultIdx? (ix2 e p) idx = some (ix2 i q)
      ↔ (idx (ix2 e (0 : Fin 1))).toInt = (i.val : Int) ∧ p = q := by
  rw [resultIdx?_eq_some_iff]
  constructor
  · intro h
    have h0 : (rowSegDims N M D wf).start (ix2 e p) idx (0 : Fin 2)
        + (((rowSegDims N M D wf).window (ix2 e p) (0 : Fin 2) : Nat) : Int) = (i.val : Int) := h (0 : Fin 2)
    have h1 : (rowSegDims N M D wf).start (ix2 e p) idx (1 : Fin 2)
        + (((rowSegDims N M D wf).window (ix2 e p) (1 : Fin 2) : Nat) : Int) = (q.val : Int) := h (1 : Fin 2)
    rw [rowSeg_start0, rowSeg_window0] at h0
    rw [rowSeg_start1, rowSeg_window1] at h1
    simp only [Nat.cast_zero, add_zero] at h0
    simp only [zero_add] at h1
    exact ⟨h0, Fin.ext (by exact_mod_cast h1)⟩
  · rintro ⟨h0, rfl⟩ a
    match a with
    | ⟨0, _⟩ =>
      show (rowSegDims N M D wf).start (ix2 e p) idx (0 : Fin 2)
        + (((rowSegDims N M D wf).window (ix2 e p) (0 : Fin 2) : Nat) : Int) = (i.val : Int)
      rw [rowSeg_start0, rowSeg_window0]
      simp only [Nat.cast_zero, add_zero]
      exact h0
    | ⟨1, _⟩ =>
      show (rowSegDims N M D wf).start (ix2 e p) idx (1 : Fin 2)
        + (((rowSegDims N M D wf).window (ix2 e p) (1 : Fin 2) : Nat) : Int) = (p.val : Int)
      rw [rowSeg_start1, rowSeg_window1]
      simp only [zero_add]

end

/-- The segment sum into a matrix read at `(i, q)`: the operand's entry plus the sum, over the update rows `e` whose
    index `idx[e, 0]`, read signed, is `i`, of their entry `q`. A row whose index is negative or at least `N` is in
    no such sum. -/
theorem scatterAdd_rows_apply {N M D w : Nat}
    (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (i : Fin N) (q : Fin D) :
    Ideal.hostScatterAdd (rowSegDims N M D wf) x idx upd (ix2 i q)
      = x (ix2 i q) + ∑ e ∈ Finset.univ.filter (fun e : Fin M => (idx (ix2 e (0 : Fin 1))).toInt = (i.val : Int)),
          upd (ix2 e q) := by
  unfold Ideal.hostScatterAdd
  congr 1
  rw [Finset.sum_filter, Finset.sum_filter, sum_idx2]
  refine Finset.sum_congr rfl fun e _ => ?_
  refine (Finset.sum_congr rfl fun b _ => if_congr (rowSeg_resultIdx?_iff wf idx e b i q) rfl rfl).trans ?_
  by_cases hP : (idx (ix2 e (0 : Fin 1))).toInt = (i.val : Int)
  · simp [hP]
  · simp [hP]

end RowSeg

/-! ## The records fit a program's printed ones

A program prints its dimension numbers as a record of literal lists over literal shapes whose last field is the proof
of the side conditions; each record above, at those sizes and that proof, is that record by definition. -/

section Fit

example (wf : GatherDims.WF ⟨1, ![100000]⟩ ⟨2, ![1700000, 1]⟩ ⟨1, ![1700000]⟩ [] [0] [] [0] [] 1 ![1]) :
    ({ offsetDims := [], collapsedSliceDims := [0], operandBatchingDims := [], startIndicesBatchingDims := [],
       startIndexMap := [0], indexVectorDim := 1, sliceSizes := ![1], wf := wf } :
      GatherDims ⟨1, ![100000]⟩ ⟨2, ![1700000, 1]⟩ ⟨1, ![1700000]⟩) = vecTakeDims 100000 1700000 wf := rfl

example (wf : GatherDims.WF ⟨2, ![100000, 128]⟩ ⟨2, ![1700000, 1]⟩ ⟨2, ![1700000, 128]⟩ [1] [0] [] [0] [] 1 ![1, 128]) :
    ({ offsetDims := [1], collapsedSliceDims := [0], operandBatchingDims := [], startIndicesBatchingDims := [],
       startIndexMap := [0], indexVectorDim := 1, sliceSizes := ![1, 128], wf := wf } :
      GatherDims ⟨2, ![100000, 128]⟩ ⟨2, ![1700000, 1]⟩ ⟨2, ![1700000, 128]⟩) = rowTakeDims 100000 1700000 128 wf := rfl

example (wf : ScatterDims.WF ⟨1, ![100000]⟩ ⟨2, ![1700000, 1]⟩ ⟨1, ![1700000]⟩ [] [0] [0] 1) :
    ({ updateWindowDims := [], insertedWindowDims := [0], scatterDimsToOperandDims := [0], indexVectorDim := 1,
       wf := wf } : ScatterDims ⟨1, ![100000]⟩ ⟨2, ![1700000, 1]⟩ ⟨1, ![1700000]⟩) = vecSegDims 100000 1700000 wf := rfl

example (wf : ScatterDims.WF ⟨2, ![100000, 128]⟩ ⟨2, ![1600000, 1]⟩ ⟨2, ![1600000, 128]⟩ [1] [0] [0] 1) :
    ({ updateWindowDims := [1], insertedWindowDims := [0], scatterDimsToOperandDims := [0], indexVectorDim := 1,
       wf := wf } : ScatterDims ⟨2, ![100000, 128]⟩ ⟨2, ![1600000, 1]⟩ ⟨2, ![1600000, 128]⟩)
      = rowSegDims 100000 1600000 128 wf := rfl

example (wf) : (vecTakeDims 100000 1700000 wf).startIndexMap = [0] := rfl
example (wf) : (vecTakeDims 100000 1700000 wf).sliceSizes = ![1] := rfl
example (wf) : (rowTakeDims 100000 1700000 128 wf).offsetDims = [1] := rfl
example (wf) : (rowTakeDims 100000 1700000 128 wf).sliceSizes = ![1, 128] := rfl
example (wf) : (vecSegDims 100000 1600000 wf).insertedWindowDims = [0] := rfl
example (wf) : (rowSegDims 100000 1600000 128 wf).updateWindowDims = [1] := rfl

end Fit

end Idealize.ShloMosaic.TakeSegment

end
-- ==== Proof.KIndex.lean ====
/-
  The program's result, entry by entry.

  For a node `r` the edges into `r` are the positions `j` of the target list whose entry, read as a signed number, is `r`
  (`into`); an entry outside `0 … 99999` is the target of no sum. The row an edge reads is its source position — a negative
  one counted from the end — clamped into `0 … 99999` (`rowOf`). With these, an aggregation read at a node and a column
  is zero plus the sum, over the edges into the node, of the feature array at the edge's row and that column
  (`agg64_apply`, `agg32_apply`), and the program's result at `(r, q)` is the two folded layers of the abstract algebra
  (`result_apply`).
-/
import proofs.«130958_j76905684402542_2_alg».proof.Proof.KFlow
import proofs.«130958_j76905684402542_2_alg».proof.Proof.LibGcnFold
import proofs.«130958_j76905684402542_2_alg».proof.Proof.LibTakeSegment

noncomputable section

namespace Cert.KernelIdeal.Flow

open Cert.KernelIdeal Cert.KernelIdeal.Gen Idealize.ShloMosaic Idealize.ShloMosaic.ValueIdx

/-- The edges into node `r`: the positions whose target, read signed, is `r`. -/
def into (d : IVec S1700000 32) (r : Fin 100000) : Finset (Fin 1700000) :=
  Finset.univ.filter fun j : Fin 1700000 => (col d (ix2 j (0 : Fin 1))).toInt = (r.val : Int)

/-- The row edge `j` reads: its position, a negative one counted from the end, clamped into the array. -/
def rowOf (s : IVec S1700000 32) (j : Fin 1700000) : Fin 100000 :=
  ⟨min (wrapCol s (ix2 j (0 : Fin 1))).toInt.toNat (100000 - 1), by omega⟩

/-- A vector as a column read at a row. -/
theorem colOf_apply (v : FVec Ideal S100000 .f32) (n : Fin 100000) : colOf v (ix2 n (0 : Fin 1)) = v (ix1 n) :=
  RowLayout.shapeCast_a_a1_apply v shapeCasts_S100000_S100000x1 n 0

/-- A vector as a row read at a column. -/
theorem row64_apply (b : FVec Ideal S64 .f32) (k : Fin 64) :
    shapeCast S1x64 b shapeCasts_S64_S1x64 (ix2 (0 : Fin 1) k) = b (ix1 k) :=
  shapeCast_a_1a_apply b shapeCasts_S64_S1x64 0 k

theorem row32_apply (b : FVec Ideal S32 .f32) (q : Fin 32) :
    shapeCast S1x32 b shapeCasts_S32_S1x32 (ix2 (0 : Fin 1) q) = b (ix1 q) :=
  shapeCast_a_1a_apply b shapeCasts_S32_S1x32 0 q

/-- At the exact values the host's scatter-add is the exact sum. -/
theorem scatterAdd_ideal {s si u : Shape} {w : Nat} {φ : FTy} (d : ScatterDims s si u) (x : FVec Ideal s φ) (idx : IVec si w)
    (upd : FVec Ideal u φ) : Host.scatterAdd d x idx upd = Ideal.hostScatterAdd d x idx upd := rfl

/-- An aggregation of 64-entry rows at a node and a column. -/
theorem agg64_apply (g : FVec Ideal S100000x64 .bf16) (s d : IVec S1700000 32) (r : Fin 100000) (k : Fin 64) :
    agg64 g s d (ix2 r k) = 0 + ∑ j ∈ into d r, g (ix2 (rowOf s j) k) := by
  unfold agg64
  rw [scatterAdd_ideal]
  refine (TakeSegment.scatterAdd_rows_apply (N := 100000) (M := 1700000) (D := 64)
    scatter_S100000x64_S1700000x1_S1700000x64_1_0_0_1.wf _ (col d) _ r k).trans ?_
  refine congrArg₂ (fun a b : EReal => a + b) ?_ (Finset.sum_congr rfl fun j _ => ?_)
  · exact (RowLayout.spread_scalar bcast_S_S100000x64 _ _).trans Ideal.ofBits_zero_f32
  · exact TakeSegment.gather_rows_apply (N := 100000) (M := 1700000) (D := 64) (Nat.succ_pos _)
      gather_S100000x64_S1700000x1_S1700000x64_1_0_n_n_0_1_164.wf g (wrapCol s) j k

/-- An aggregation of 32-entry rows at a node and a column. -/
theorem agg32_apply (g : FVec Ideal S100000x32 .bf16) (s d : IVec S1700000 32) (r : Fin 100000) (q : Fin 32) :
    agg32 g s d (ix2 r q) = 0 + ∑ j ∈ into d r, g (ix2 (rowOf s j) q) := by
  unfold agg32
  rw [scatterAdd_ideal]
  refine (TakeSegment.scatterAdd_rows_apply (N := 100000) (M := 1700000) (D := 32)
    scatter_S100000x32_S1700000x1_S1700000x32_1_0_0_1.wf _ (col d) _ r q).trans ?_
  refine congrArg₂ (fun a b : EReal => a + b) ?_ (Finset.sum_congr rfl fun j _ => ?_)
  · exact (RowLayout.spread_scalar bcast_S_S100000x32 _ _).trans Ideal.ofBits_zero_f32
  · exact TakeSegment.gather_rows_apply (N := 100000) (M := 1700000) (D := 32) (Nat.succ_pos _)
      gather_S100000x32_S1700000x1_S1700000x32_1_0_n_n_0_1_132.wf g (wrapCol s) j q

/-- The program's result at `(r, q)`: two layers with the normalisation folded into their ends. -/
theorem result_apply (x : FVec Ideal S100000x64 .f32) (e : IVec S2x1600000 32) (w1 : FVec Ideal S64x64 .f32) (b1 : FVec Ideal S64 .f32)
    (w2 : FVec Ideal S64x32 .f32) (b2 : FVec Ideal S32 .f32) (r : Fin 100000) (q : Fin 32) :
    result x e w1 b1 w2 b2 (ix2 r q)
      = Cert.Gcn.foldedOut (into (dstOf e)) (rowOf (srcOf e)) (fun n => dinvOf (dstOf e) (ix1 n))
          (fun n i => x (ix2 n i)) (fun i k => w1 (ix2 i k)) (fun k => b1 (ix1 k)) (fun k q => w2 (ix2 k q)) (fun q => b2 (ix1 q))
          (Ideal.ofBits .f32 0x00000000#32) r q := by
  unfold result Cert.Gcn.foldedOut Cert.Gcn.aggThenScale
  rw [Reg2.scaled_apply, agg32_apply, colOf_apply, row32_apply]
  refine congrArg (fun t : EReal => (0 + t) * dinvOf (dstOf e) (ix1 r) + b2 (ix1 q)) (Finset.sum_congr rfl fun j _ => ?_)
  rw [Reg1.hidden_apply, colOf_apply]
  refine congrArg (fun t : EReal => t * dinvOf (dstOf e) (ix1 (rowOf (srcOf e) j))) (Finset.sum_congr rfl fun k _ => ?_)
  rw [agg64_apply, row64_apply]
  refine congrArg (fun t : EReal => max ((0 + t) * dinvOf (dstOf e) (ix1 (rowOf (srcOf e) j)) + b1 (ix1 k))
    (Ideal.ofBits .f32 0x00000000#32) * w2 (ix2 k q)) (Finset.sum_congr rfl fun j' _ => ?_)
  rw [Reg0.proj_apply, colOf_apply]

end Cert.KernelIdeal.Flow

end
-- ==== Proof.KFacts.lean ====
/-
  Three facts about the graph the program builds from the edge list.

  Every node's factor is a real number: a node's degree is zero plus a sum of ones, a real number; where the degree is
  positive its reciprocal square root is a real number, and elsewhere the factor is zero (`isReal_dinv`). An edge into
  node `r` — its target position, read signed, is `r` — has a target position that is not negative and lies inside the
  array, so wrapping and clamping leave it alone and the row it names is `r` itself (`rowOf_of_mem`).
-/
import proofs.«130958_j76905684402542_2_alg».proof.Proof.KIndex

noncomputable section

namespace Cert.KernelIdeal.Flow

open Cert.KernelIdeal Cert.KernelIdeal.Gen Idealize.ShloMosaic Idealize.ShloMosaic.ValueIdx
open Cert.EdgeLoss Cert.Gcn

/-- A float pattern whose exponent field is not all ones denotes a real number. -/
theorem isReal_ieee (e mm : Nat) {w : Nat} (b : BitVec w) (h : (b.extractLsb' mm e).toNat ≠ 2 ^ e - 1) :
    IsReal (Ideal.ieee e mm b) := by
  unfold Ideal.ieee
  dsimp only
  rw [if_neg h]
  split
  · exact ⟨_, rfl⟩
  · exact ⟨_, rfl⟩

/-- The pattern of the number one denotes a real number. -/
theorem isReal_one : IsReal (Ideal.ofBits .f32 0x3F800000#32) :=
  isReal_ieee 8 23 (0x3F800000#32 : BitVec 32) (by decide)

/-- A position list as a column reads the list. -/
theorem col_apply (d : IVec S1700000 32) (j : Fin 1700000) : col d (ix2 j (0 : Fin 1)) = d (ix1 j) :=
  broadcastInDim_apply _ bcast_S1700000_S1700000x1_0 d (ix2 j (0 : Fin 1)) (ix1 j) (fun a => match a with
    | ⟨0, _⟩ => by show j.val = if (1700000 : Nat) = 1 then 0 else j.val; rw [if_neg (by decide)])

/-- A node's degree: zero plus a one for every edge into it. -/
theorem deg_apply (d : IVec S1700000 32) (n : Fin 100000) :
    degOf d (ix1 n) = 0 + ∑ j ∈ into d n, Ideal.ofBits .f32 0x3F800000#32 := by
  unfold degOf
  rw [scatterAdd_ideal]
  refine (TakeSegment.scatterAdd_vec_apply (N := 100000) (M := 1700000)
    scatter_S100000_S1700000x1_S1700000_n_0_0_1.wf _ (col d) _ n).trans ?_
  refine congrArg₂ (fun a b : EReal => a + b) ?_ (Finset.sum_congr rfl fun j _ => ?_)
  · exact (RowLayout.spread_scalar bcast_S_S100000 _ _).trans Ideal.ofBits_zero_f32
  · exact RowLayout.spread_scalar bcast_S_S1700000 _ _

theorem isReal_deg (d : IVec S1700000 32) (n : Fin 100000) : IsReal (degOf d (ix1 n)) := by
  rw [deg_apply]
  exact isReal_zero_add_sum _ _ fun _ => isReal_one

/-- The reciprocal square root of a positive real number is a real number. -/
theorem isReal_rsqrt {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg hr.ne']
  exact ⟨_, rfl⟩

/-- The host's reciprocal square root of an array, at an index. -/
theorem hostRsqrt_apply (f : FVec Ideal S100000 .f32) (i : S100000.Idx) : Host.rsqrt f i = Ideal.rsqrt (f i) := rfl

/-- A node's factor: the reciprocal square root of its degree where the degree is positive, zero elsewhere. -/
theorem dinv_apply (d : IVec S1700000 32) (n : Fin 100000) :
    dinvOf d (ix1 n) = Scalar.select (Ideal.cmp .ogt (degOf d (ix1 n)) 0) (Ideal.rsqrt (degOf d (ix1 n))) 0 := by
  have hz : broadcastInDim S100000 ![] bcast_S_S100000 (constant (F := Ideal) S_ .f32 0x00000000#32) (ix1 n) = (0 : EReal) :=
    (RowLayout.spread_scalar bcast_S_S100000 _ _).trans Ideal.ofBits_zero_f32
  have hz' : broadcastInDim S100000 ![] bcast_S_S100000 (id (constant (F := Ideal) S_ .f32 0x00000000#32)) (ix1 n) = (0 : EReal) :=
    (RowLayout.spread_scalar bcast_S_S100000 _ _).trans Ideal.ofBits_zero_f32
  unfold dinvOf
  generalize degOf d = f
  rw [select_apply, cmpf_apply, hostRsqrt_apply, Ideal.cmpf_def, hz, hz']

/-- The selection is a real number whenever the degree is. -/
theorem isReal_select_rsqrt {x : EReal} (hx : IsReal x) :
    IsReal (Scalar.select (Ideal.cmp .ogt x 0) (Ideal.rsqrt x) (0 : EReal)) := by
  by_cases h : (0 : EReal) < x
  · have hc : Ideal.cmp .ogt x 0 = 1#1 := by
      unfold Ideal.cmp
      dsimp only
      rw [decide_eq_true h]
      rfl
    rw [hc, select_one]
    exact isReal_rsqrt hx h
  · have hc : Ideal.cmp .ogt x 0 = 0#1 := by
      unfold Ideal.cmp
      dsimp only
      rw [decide_eq_false h]
      rfl
    rw [hc, select_zero]
    exact isReal_zero

/-- Every node's factor is a real number. -/
theorem isReal_dinv (d : IVec S1700000 32) (n : Fin 100000) : IsReal (dinvOf d (ix1 n)) := by
  rw [dinv_apply]
  exact isReal_select_rsqrt (isReal_deg d n)

/-- An edge into node `n` names row `n`. -/
theorem rowOf_of_mem (d : IVec S1700000 32) (n : Fin 100000) (j : Fin 1700000) (hj : j ∈ into d n) : rowOf d j = n := by
  have h : (d (ix1 j)).toInt = (n.val : Int) := by
    have h0 := (Finset.mem_filter.mp hj).2
    rwa [col_apply] at h0
  have hz : broadcastInDim S1700000 ![] bcast_S_S1700000 (constantI S_ 32 0#32) (ix1 j) = 0#32 :=
    RowLayout.spread_scalar bcast_S_S1700000 _ _
  have hs : (d (ix1 j)).slt 0#32 = false := by
    rw [Bool.eq_false_iff]
    intro hs
    rw [BitVec.slt_iff_toInt_lt, h] at hs
    simp at hs
    omega
  have hw : wrapCol d (ix2 j (0 : Fin 1)) = d (ix1 j) := by
    unfold wrapCol
    rw [col_apply]
    show Scalar.select (IntOp.cmpi .slt (d (ix1 j)) (broadcastInDim S1700000 ![] bcast_S_S1700000 (constantI S_ 32 0#32) (ix1 j)))
      _ (d (ix1 j)) = d (ix1 j)
    rw [hz]
    have hc : IntOp.cmpi .slt (d (ix1 j)) 0#32 = 0#1 := by
      unfold IntOp.cmpi
      simp [hs]
    rw [hc, select_zero]
  apply Fin.ext
  show min (wrapCol d (ix2 j (0 : Fin 1))).toInt.toNat (100000 - 1) = n.val
  rw [hw, h]
  have hn := n.isLt
  simp only [Int.toNat_natCast]
  omega

end Cert.KernelIdeal.Flow

end
-- ==== Proof.KPre.lean ====
/-
  What the precondition says: every float argument is an array of real numbers.

  The precondition is the conjunction, over the five float arguments, of "every entry's absolute value is below +∞",
  each computed as an `and` over the whole array of the entries' comparison bits. Where the conjunction is one, every
  comparison bit is one; the absolute value of an extended real is the larger of it and its negation, which is +∞ at
  both infinities, so an entry whose bit is one is a real number.
-/
import proofs.«130958_j76905684402542_2_alg».proof.Pre_finite_inputs
import proofs.«130958_j76905684402542_2_alg».proof.Proof.LibIsReal
import Idealize.ShloMosaic.Lib.ReduceAll
import Idealize.ShloMosaic.Lib.ValueIdx
import Idealize.ShloMosaic.PureOps.Ideal.Laws

noncomputable section

namespace Cert.PreFinite

open Cert.Pre_finite_inputs Idealize.ShloMosaic Idealize.ShloMosaic.ValueIdx Cert.EdgeLoss

variable [Cert.Pre_finite_inputs.Facts]

instance : Subsingleton S_.Idx := ⟨fun a b => funext fun d => d.elim0⟩

/-- The pattern of +∞ denotes +∞. -/
theorem ofBits_inf : Ideal.ofBits .f32 0x7F800000#32 = ⊤ := by simp [Ideal.ofBits, Ideal.ieee]

/-- An extended real whose absolute value compares below +∞ is a real number. -/
theorem isReal_of_bit (x : EReal) (h : Ideal.cmp .olt (max x (-x)) (Ideal.ofBits .f32 0x7F800000#32) = 1#1) : IsReal x := by
  rw [ofBits_inf] at h
  unfold Ideal.cmp at h
  have hlt : max x (-x) < ⊤ := by
    by_contra hc
    simp only [hc, decide_false] at h
    exact absurd h (by decide)
  induction x using EReal.rec
  · simp at hlt
  · exact ⟨_, rfl⟩
  · simp at hlt

/-- Under the precondition every float argument holds real numbers. -/
theorem finite_of_pre (x0 : FVec Ideal S100000x64 .f32) (x1 : IVec S2x1600000 32) (x2 : FVec Ideal S64x64 .f32)
    (x3 : FVec Ideal S64 .f32) (x4 : FVec Ideal S64x32 .f32) (x5 : FVec Ideal S32 .f32)
    (h : Cert.Pre_finite_inputs.fn (F := Ideal) x0 x1 x2 x3 x4 x5 = fun _ => 1#1) :
    (∀ i, IsReal (x0 i)) ∧ (∀ i, IsReal (x2 i)) ∧ (∀ i, IsReal (x3 i)) ∧ (∀ i, IsReal (x4 i)) ∧ (∀ i, IsReal (x5 i)) := by
  have h0 := congrFun h ix0
  unfold Cert.Pre_finite_inputs.fn Cert.Pre_finite_inputs.fn_part1 at h0
  dsimp only at h0
  obtain ⟨h0123, e5⟩ := IntOp.andi_eq_one.1 h0
  obtain ⟨h012, e4⟩ := IntOp.andi_eq_one.1 h0123
  obtain ⟨h01, e3⟩ := IntOp.andi_eq_one.1 h012
  obtain ⟨e0, e2⟩ := IntOp.andi_eq_one.1 h01
  refine ⟨fun i => ?_, fun i => ?_, fun i => ?_, fun i => ?_, fun i => ?_⟩
  · exact isReal_of_bit (x0 i) (Host.reduce_andi_all _ _ _ _ ix0 e0 i)
  · exact isReal_of_bit (x2 i) (Host.reduce_andi_all _ _ _ _ ix0 e2 i)
  · exact isReal_of_bit (x3 i) (Host.reduce_andi_all _ _ _ _ ix0 e3 i)
  · exact isReal_of_bit (x4 i) (Host.reduce_andi_all _ _ _ _ ix0 e4 i)
  · exact isReal_of_bit (x5 i) (Host.reduce_andi_all _ _ _ _ ix0 e5 i)

end Cert.PreFinite

end
-- ==== Proof.RefSide.lean ====
/-
  The reference program's result, entry by entry.

  The reference computes the same node factors and the same edge ends as the kernel program, and weights every edge by
  the product of the factors of its two ends (`nrm`). A layer projects the features, takes for every edge the projected
  row at the edge's source times the edge's weight, sums the rows of the edges into each node, and adds the bias
  (`wagg64`, `wagg32`); between the two layers the features are rectified. The run's result term is that composition
  (`res_eq`), and read at a node and a column it is the two weighted layers of the abstract algebra (`refResult_apply`),
  over the same edge sets, rows and factors as the kernel program's.
-/
import proofs.«130958_j76905684402542_2_alg».proof.Proof.KIndex
import proofs.«130958_j76905684402542_2_alg».proof.Proof.RefReadP
import proofs.«130958_j76905684402542_2_alg».proof.Proof.LibRowsCols
import proofs.«130958_j76905684402542_2_alg».proof.Proof.LibTakeSegment

set_option maxRecDepth 16384

noncomputable section

namespace Cert.RefSide

open Cert.ReferenceIdeal Cert.ReferenceIdeal.Gen Idealize.ShloMosaic Idealize.ShloMosaic.TcCoe Idealize.ShloMosaic.ValueIdx Idealize.SL.Sem

/-- An edge's weight: the factor of its source row times the factor of its target row. -/
def nrm (e : IVec S2x1600000 32) : FVec Ideal S1700000 .f32 :=
  mulf (Host.gather gather_S100000_S1700000x1_S1700000_n_0_n_n_0_1_1 (Cert.KernelIdeal.Flow.dinvOf (Cert.KernelIdeal.Flow.dstOf e)) (Cert.KernelIdeal.Flow.wrapCol (Cert.KernelIdeal.Flow.srcOf e)))
    (Host.gather gather_S100000_S1700000x1_S1700000_n_0_n_n_0_1_1 (Cert.KernelIdeal.Flow.dinvOf (Cert.KernelIdeal.Flow.dstOf e)) (Cert.KernelIdeal.Flow.wrapCol (Cert.KernelIdeal.Flow.dstOf e)))

/-- For every node the sum, over the edges into it, of the 64-entry row at the edge's source times the edge's weight. -/
def wagg64 (h : FVec Ideal S100000x64 .f32) (e : IVec S2x1600000 32) : FVec Ideal S100000x64 .f32 :=
  Host.scatterAdd scatter_S100000x64_S1700000x1_S1700000x64_1_0_0_1
    (broadcastInDim S100000x64 ![] bcast_S_S100000x64 (constant S_ .f32 0x00000000#32)) (Cert.KernelIdeal.Flow.col (Cert.KernelIdeal.Flow.dstOf e))
    (mulf (Host.gather gather_S100000x64_S1700000x1_S1700000x64_1_0_n_n_0_1_164 h (Cert.KernelIdeal.Flow.wrapCol (Cert.KernelIdeal.Flow.srcOf e)))
      (broadcastInDim S1700000x64 ![0, 1] bcast_S1700000x1_S1700000x64_0_1
        (broadcastInDim S1700000x1 ![0] bcast_S1700000_S1700000x1_0 (nrm e))))

/-- The same for 32-entry rows. -/
def wagg32 (h : FVec Ideal S100000x32 .f32) (e : IVec S2x1600000 32) : FVec Ideal S100000x32 .f32 :=
  Host.scatterAdd scatter_S100000x32_S1700000x1_S1700000x32_1_0_0_1
    (broadcastInDim S100000x32 ![] bcast_S_S100000x32 (constant S_ .f32 0x00000000#32)) (Cert.KernelIdeal.Flow.col (Cert.KernelIdeal.Flow.dstOf e))
    (mulf (Host.gather gather_S100000x32_S1700000x1_S1700000x32_1_0_n_n_0_1_132 h (Cert.KernelIdeal.Flow.wrapCol (Cert.KernelIdeal.Flow.srcOf e)))
      (broadcastInDim S1700000x32 ![0, 1] bcast_S1700000x1_S1700000x32_0_1
        (broadcastInDim S1700000x1 ![0] bcast_S1700000_S1700000x1_0 (nrm e))))

/-- The reference's result as one function of its six arguments. -/
def refResult (x : FVec Ideal S100000x64 .f32) (e : IVec S2x1600000 32) (w1 : FVec Ideal S64x64 .f32) (b1 : FVec Ideal S64 .f32)
    (w2 : FVec Ideal S64x32 .f32) (b2 : FVec Ideal S32 .f32) : FVec Ideal S100000x32 .f32 :=
  addf (wagg32 (Host.dotGeneral dot_S100000x64_S64x32_S100000x32_1_0_0_1_n_n none
      (maximumf (addf (wagg64 (Host.dotGeneral dot_S100000x64_S64x64_S100000x64_1_0_0_1_n_n none x w1) e)
          (broadcastInDim S100000x64 ![0, 1] bcast_S1x64_S100000x64_0_1 (broadcastInDim S1x64 ![1] bcast_S64_S1x64_1 b1)))
        (broadcastInDim S100000x64 ![] bcast_S_S100000x64 (constant S_ .f32 0x00000000#32))) w2) e)
    (broadcastInDim S100000x32 ![0, 1] bcast_S1x32_S100000x32_0_1 (broadcastInDim S1x32 ![1] bcast_S32_S1x32_1 b2))

/-! ## Read at an index

The edge ends and the node factors are fixed arrays here: nothing below looks inside them. -/

attribute [local irreducible] Cert.KernelIdeal.Flow.dinvOf Cert.KernelIdeal.Flow.srcOf Cert.KernelIdeal.Flow.dstOf Cert.KernelIdeal.Flow.wrapCol Cert.KernelIdeal.Flow.col

/-- A vector taken at a column of start indices, at an edge. -/
theorem take_apply (v : FVec Ideal S100000 .f32) (idx : IVec S1700000x1 32) (j : Fin 1700000) :
    Host.gather gather_S100000_S1700000x1_S1700000_n_0_n_n_0_1_1 v idx (ix1 j)
      = v (ix1 ⟨min (idx (ix2 j (0 : Fin 1))).toInt.toNat (100000 - 1), by omega⟩) :=
  TakeSegment.gather_vec_apply (N := 100000) (M := 1700000) (Nat.succ_pos _)
    gather_S100000_S1700000x1_S1700000_n_0_n_n_0_1_1.wf v idx j

/-- Rows of 64 entries taken at a column of start indices, at an edge and a column. -/
theorem take64_apply (h : FVec Ideal S100000x64 .f32) (idx : IVec S1700000x1 32) (j : Fin 1700000) (k : Fin 64) :
    Host.gather gather_S100000x64_S1700000x1_S1700000x64_1_0_n_n_0_1_164 h idx (ix2 j k)
      = h (ix2 ⟨min (idx (ix2 j (0 : Fin 1))).toInt.toNat (100000 - 1), by omega⟩ k) :=
  TakeSegment.gather_rows_apply (N := 100000) (M := 1700000) (D := 64) (Nat.succ_pos _)
    gather_S100000x64_S1700000x1_S1700000x64_1_0_n_n_0_1_164.wf h idx j k

theorem take32_apply (h : FVec Ideal S100000x32 .f32) (idx : IVec S1700000x1 32) (j : Fin 1700000) (q : Fin 32) :
    Host.gather gather_S100000x32_S1700000x1_S1700000x32_1_0_n_n_0_1_132 h idx (ix2 j q)
      = h (ix2 ⟨min (idx (ix2 j (0 : Fin 1))).toInt.toNat (100000 - 1), by omega⟩ q) :=
  TakeSegment.gather_rows_apply (N := 100000) (M := 1700000) (D := 32) (Nat.succ_pos _)
    gather_S100000x32_S1700000x1_S1700000x32_1_0_n_n_0_1_132.wf h idx j q

/-- A segment sum of 64-entry rows from the zero array, at a node and a column. -/
theorem seg64_apply (idx : IVec S1700000x1 32) (u : FVec Ideal S1700000x64 .f32) (n : Fin 100000) (k : Fin 64) :
    Host.scatterAdd scatter_S100000x64_S1700000x1_S1700000x64_1_0_0_1
        (broadcastInDim S100000x64 ![] bcast_S_S100000x64 (constant S_ .f32 0x00000000#32)) idx u (ix2 n k)
      = 0 + ∑ j ∈ Finset.univ.filter (fun j : Fin 1700000 => (idx (ix2 j (0 : Fin 1))).toInt = (n.val : Int)), u (ix2 j k) := by
  rw [Cert.KernelIdeal.Flow.scatterAdd_ideal]
  refine (TakeSegment.scatterAdd_rows_apply (N := 100000) (M := 1700000) (D := 64)
    scatter_S100000x64_S1700000x1_S1700000x64_1_0_0_1.wf _ idx u n k).trans ?_
  exact congrArg (fun t : EReal => t + _) ((RowLayout.spread_scalar bcast_S_S100000x64 _ _).trans Ideal.ofBits_zero_f32)

theorem seg32_apply (idx : IVec S1700000x1 32) (u : FVec Ideal S1700000x32 .f32) (n : Fin 100000) (q : Fin 32) :
    Host.scatterAdd scatter_S100000x32_S1700000x1_S1700000x32_1_0_0_1
        (broadcastInDim S100000x32 ![] bcast_S_S100000x32 (constant S_ .f32 0x00000000#32)) idx u (ix2 n q)
      = 0 + ∑ j ∈ Finset.univ.filter (fun j : Fin 1700000 => (idx (ix2 j (0 : Fin 1))).toInt = (n.val : Int)), u (ix2 j q) := by
  rw [Cert.KernelIdeal.Flow.scatterAdd_ideal]
  refine (TakeSegment.scatterAdd_rows_apply (N := 100000) (M := 1700000) (D := 32)
    scatter_S100000x32_S1700000x1_S1700000x32_1_0_0_1.wf _ idx u n q).trans ?_
  exact congrArg (fun t : EReal => t + _) ((RowLayout.spread_scalar bcast_S_S100000x32 _ _).trans Ideal.ofBits_zero_f32)

/-- An edge's weight at the edge. -/
theorem nrm_apply (e : IVec S2x1600000 32) (j : Fin 1700000) :
    nrm e (ix1 j) = Cert.KernelIdeal.Flow.dinvOf (Cert.KernelIdeal.Flow.dstOf e) (ix1 (Cert.KernelIdeal.Flow.rowOf (Cert.KernelIdeal.Flow.srcOf e) j)) * Cert.KernelIdeal.Flow.dinvOf (Cert.KernelIdeal.Flow.dstOf e) (ix1 (Cert.KernelIdeal.Flow.rowOf (Cert.KernelIdeal.Flow.dstOf e) j)) := by
  unfold nrm
  rw [mulf_apply, take_apply, take_apply]
  rfl

/-- A per-edge value spread over the columns reads the edge's value at every column. -/
theorem spread64 (v : FVec Ideal S1700000 .f32) (j : Fin 1700000) (k : Fin 64) :
    broadcastInDim S1700000x64 ![0, 1] bcast_S1700000x1_S1700000x64_0_1
      (broadcastInDim S1700000x1 ![0] bcast_S1700000_S1700000x1_0 v) (ix2 j k) = v (ix1 j) :=
  (broadcastInDim_apply _ bcast_S1700000x1_S1700000x64_0_1 _ (ix2 j k) (ix2 j (0 : Fin 1)) (fun a => match a with
    | ⟨0, _⟩ => by show j.val = if (1700000 : Nat) = 1 then 0 else j.val; rw [if_neg (by decide)]
    | ⟨1, _⟩ => by show 0 = if (1 : Nat) = 1 then 0 else k.val; rw [if_pos rfl])).trans
  (broadcastInDim_apply _ bcast_S1700000_S1700000x1_0 v (ix2 j (0 : Fin 1)) (ix1 j) (fun a => match a with
    | ⟨0, _⟩ => by show j.val = if (1700000 : Nat) = 1 then 0 else j.val; rw [if_neg (by decide)]))

theorem spread32 (v : FVec Ideal S1700000 .f32) (j : Fin 1700000) (q : Fin 32) :
    broadcastInDim S1700000x32 ![0, 1] bcast_S1700000x1_S1700000x32_0_1
      (broadcastInDim S1700000x1 ![0] bcast_S1700000_S1700000x1_0 v) (ix2 j q) = v (ix1 j) :=
  (broadcastInDim_apply _ bcast_S1700000x1_S1700000x32_0_1 _ (ix2 j q) (ix2 j (0 : Fin 1)) (fun a => match a with
    | ⟨0, _⟩ => by show j.val = if (1700000 : Nat) = 1 then 0 else j.val; rw [if_neg (by decide)]
    | ⟨1, _⟩ => by show 0 = if (1 : Nat) = 1 then 0 else q.val; rw [if_pos rfl])).trans
  (broadcastInDim_apply _ bcast_S1700000_S1700000x1_0 v (ix2 j (0 : Fin 1)) (ix1 j) (fun a => match a with
    | ⟨0, _⟩ => by show j.val = if (1700000 : Nat) = 1 then 0 else j.val; rw [if_neg (by decide)]))

/-- A bias spread over the rows reads its entry of the column at every row. -/
theorem bias64 (b : FVec Ideal S64 .f32) (n : Fin 100000) (k : Fin 64) :
    broadcastInDim S100000x64 ![0, 1] bcast_S1x64_S100000x64_0_1 (broadcastInDim S1x64 ![1] bcast_S64_S1x64_1 b) (ix2 n k) = b (ix1 k) :=
  (broadcastInDim_apply _ bcast_S1x64_S100000x64_0_1 _ (ix2 n k) (ix2 (0 : Fin 1) k) (fun a => match a with
    | ⟨0, _⟩ => by show 0 = if (1 : Nat) = 1 then 0 else n.val; rw [if_pos rfl]
    | ⟨1, _⟩ => by show k.val = if (64 : Nat) = 1 then 0 else k.val; rw [if_neg (by decide)])).trans
  (broadcastInDim_apply _ bcast_S64_S1x64_1 b (ix2 (0 : Fin 1) k) (ix1 k) (fun a => match a with
    | ⟨0, _⟩ => by show k.val = if (64 : Nat) = 1 then 0 else k.val; rw [if_neg (by decide)]))

theorem bias32 (b : FVec Ideal S32 .f32) (n : Fin 100000) (q : Fin 32) :
    broadcastInDim S100000x32 ![0, 1] bcast_S1x32_S100000x32_0_1 (broadcastInDim S1x32 ![1] bcast_S32_S1x32_1 b) (ix2 n q) = b (ix1 q) :=
  (broadcastInDim_apply _ bcast_S1x32_S100000x32_0_1 _ (ix2 n q) (ix2 (0 : Fin 1) q) (fun a => match a with
    | ⟨0, _⟩ => by show 0 = if (1 : Nat) = 1 then 0 else n.val; rw [if_pos rfl]
    | ⟨1, _⟩ => by show q.val = if (32 : Nat) = 1 then 0 else q.val; rw [if_neg (by decide)])).trans
  (broadcastInDim_apply _ bcast_S32_S1x32_1 b (ix2 (0 : Fin 1) q) (ix1 q) (fun a => match a with
    | ⟨0, _⟩ => by show q.val = if (32 : Nat) = 1 then 0 else q.val; rw [if_neg (by decide)]))

/-- A weighted aggregation of 64-entry rows at a node and a column. -/
theorem wagg64_apply (h : FVec Ideal S100000x64 .f32) (e : IVec S2x1600000 32) (n : Fin 100000) (k : Fin 64) :
    wagg64 h e (ix2 n k) = 0 + ∑ j ∈ Cert.KernelIdeal.Flow.into (Cert.KernelIdeal.Flow.dstOf e) n, h (ix2 (Cert.KernelIdeal.Flow.rowOf (Cert.KernelIdeal.Flow.srcOf e) j) k)
      * (Cert.KernelIdeal.Flow.dinvOf (Cert.KernelIdeal.Flow.dstOf e) (ix1 (Cert.KernelIdeal.Flow.rowOf (Cert.KernelIdeal.Flow.srcOf e) j)) * Cert.KernelIdeal.Flow.dinvOf (Cert.KernelIdeal.Flow.dstOf e) (ix1 (Cert.KernelIdeal.Flow.rowOf (Cert.KernelIdeal.Flow.dstOf e) j))) := by
  unfold wagg64
  rw [seg64_apply]
  refine congrArg (fun t : EReal => 0 + t) (Finset.sum_congr rfl fun j _ => ?_)
  rw [mulf_apply, take64_apply, spread64, nrm_apply]
  rfl

theorem wagg32_apply (h : FVec Ideal S100000x32 .f32) (e : IVec S2x1600000 32) (n : Fin 100000) (q : Fin 32) :
    wagg32 h e (ix2 n q) = 0 + ∑ j ∈ Cert.KernelIdeal.Flow.into (Cert.KernelIdeal.Flow.dstOf e) n, h (ix2 (Cert.KernelIdeal.Flow.rowOf (Cert.KernelIdeal.Flow.srcOf e) j) q)
      * (Cert.KernelIdeal.Flow.dinvOf (Cert.KernelIdeal.Flow.dstOf e) (ix1 (Cert.KernelIdeal.Flow.rowOf (Cert.KernelIdeal.Flow.srcOf e) j)) * Cert.KernelIdeal.Flow.dinvOf (Cert.KernelIdeal.Flow.dstOf e) (ix1 (Cert.KernelIdeal.Flow.rowOf (Cert.KernelIdeal.Flow.dstOf e) j))) := by
  unfold wagg32
  rw [seg32_apply]
  refine congrArg (fun t : EReal => 0 + t) (Finset.sum_congr rfl fun j _ => ?_)
  rw [mulf_apply, take32_apply, spread32, nrm_apply]
  rfl

/-- The first projection at a node and a column. -/
theorem dot1_apply (x : FVec Ideal S100000x64 .f32) (w1 : FVec Ideal S64x64 .f32) (n : Fin 100000) (k : Fin 64) :
    Host.dotGeneral dot_S100000x64_S64x64_S100000x64_1_0_0_1_n_n none x w1 (ix2 n k) = ∑ i : Fin 64, x (ix2 n i) * w1 (ix2 i k) :=
  RowsCols.dotGeneral_apply dot_S100000x64_S64x64_S100000x64_1_0_0_1_n_n rfl rfl rfl rfl
    Cert.ReferenceIdeal.ReadP.lhs_main_v30_0 Cert.ReferenceIdeal.ReadP.rhs_main_v30_1 none _ x w1 n k

/-- The second projection at a node and a column. -/
theorem dot2_apply (t : FVec Ideal S100000x64 .f32) (w2 : FVec Ideal S64x32 .f32) (n : Fin 100000) (q : Fin 32) :
    Host.dotGeneral dot_S100000x64_S64x32_S100000x32_1_0_0_1_n_n none t w2 (ix2 n q) = ∑ k : Fin 64, t (ix2 n k) * w2 (ix2 k q) :=
  RowsCols.dotGeneral_apply dot_S100000x64_S64x32_S100000x32_1_0_0_1_n_n rfl rfl rfl rfl
    Cert.ReferenceIdeal.ReadP.lhs_main_v48_0 Cert.ReferenceIdeal.ReadP.rhs_main_v48_1 none _ t w2 n q

/-- The zero splat read anywhere. -/
theorem zeros64_apply (i : S100000x64.Idx) :
    broadcastInDim S100000x64 ![] bcast_S_S100000x64 (constant (F := Ideal) S_ .f32 0x00000000#32) i = Ideal.ofBits .f32 0x00000000#32 :=
  RowLayout.spread_scalar bcast_S_S100000x64 _ _

/-- The reference's result at `(r, q)`: two layers with every edge weighted by its normalisation. -/
theorem refResult_apply (x : FVec Ideal S100000x64 .f32) (e : IVec S2x1600000 32) (w1 : FVec Ideal S64x64 .f32) (b1 : FVec Ideal S64 .f32)
    (w2 : FVec Ideal S64x32 .f32) (b2 : FVec Ideal S32 .f32) (r : Fin 100000) (q : Fin 32) :
    refResult x e w1 b1 w2 b2 (ix2 r q)
      = Cert.Gcn.weightedOut (Cert.KernelIdeal.Flow.into (Cert.KernelIdeal.Flow.dstOf e)) (Cert.KernelIdeal.Flow.rowOf (Cert.KernelIdeal.Flow.srcOf e)) (Cert.KernelIdeal.Flow.rowOf (Cert.KernelIdeal.Flow.dstOf e))
          (fun n => Cert.KernelIdeal.Flow.dinvOf (Cert.KernelIdeal.Flow.dstOf e) (ix1 n))
          (fun n i => x (ix2 n i)) (fun i k => w1 (ix2 i k)) (fun k => b1 (ix1 k)) (fun k q => w2 (ix2 k q)) (fun q => b2 (ix1 q))
          (Ideal.ofBits .f32 0x00000000#32) r q := by
  unfold refResult Cert.Gcn.weightedOut Cert.Gcn.aggWeighted
  rw [addf_apply, bias32, wagg32_apply]
  refine congrArg (fun t : EReal => 0 + t + b2 (ix1 q)) (Finset.sum_congr rfl fun j _ => ?_)
  rw [dot2_apply]
  refine congrArg (fun t : EReal => t * (Cert.KernelIdeal.Flow.dinvOf (Cert.KernelIdeal.Flow.dstOf e) (ix1 (Cert.KernelIdeal.Flow.rowOf (Cert.KernelIdeal.Flow.srcOf e) j)) * Cert.KernelIdeal.Flow.dinvOf (Cert.KernelIdeal.Flow.dstOf e) (ix1 (Cert.KernelIdeal.Flow.rowOf (Cert.KernelIdeal.Flow.dstOf e) j))))
    (Finset.sum_congr rfl fun k _ => ?_)
  rw [maximumf_apply, addf_apply, bias64, zeros64_apply, wagg64_apply]
  refine congrArg (fun t : EReal => max (0 + t + b1 (ix1 k)) (Ideal.ofBits .f32 0x00000000#32) * w2 (ix2 k q))
    (Finset.sum_congr rfl fun j' _ => ?_)
  rw [dot1_apply]

end Cert.RefSide

end
-- ==== Proof.RefRes.lean ====
/-
  The reference's run ends with the weighted layers' array.

  The run's result term is the composition of the reference's operations over the launched arguments; spelling the same
  composition through the edge ends, the node factors and the weighted aggregations gives `refResult` of the arguments.
-/
import proofs.«130958_j76905684402542_2_alg».proof.Proof.RefSide

set_option maxRecDepth 16384

noncomputable section

namespace Cert.RefSide

open Cert.ReferenceIdeal Cert.ReferenceIdeal.Gen Idealize.ShloMosaic Idealize.ShloMosaic.TcCoe Idealize.SL.Sem

set_option maxHeartbeats 4000000 in
/-- The run's result term is that function of the launched arguments. -/
theorem res_eq (m : (ℓ : Loc nD τ sig) → Buf (Elt Ideal) ℓ) (c : Dev nD) :
    Cert.ReferenceIdeal.ValueP.res_main_v64 (F := Ideal) m c
      = refResult (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v64
  rfl

end Cert.RefSide

end
-- ==== Proof.lean ====
/-
  A two-layer graph convolution: the kernel program against its reference, on the extended reals.

  Both programs build the same graph from the edge list — every edge's source and target, one self-loop per node, and
  every node's factor, the reciprocal square root of its in-degree. The reference weights each edge by the product of
  its two ends' factors, and a layer is: project the node features, sum over the edges into each node the projected row
  at the edge's source times the edge's weight, add the bias. The kernel program folds the weight into the layer's two
  ends: its dense stages scale every projected row by the node's own factor before the rows are gathered, and scale
  every aggregated row by the node's own factor again after the sum — the target's factor is the same for every edge of
  one sum, and for an edge into node `r` the target row IS `r`. The two agree wherever the product distributes over the
  sum, that is on real numbers: the features, weights and biases are real by the precondition, the factors are real
  because a degree is a finite count, and sums, products and maxima of real numbers are real.

  The kernel program's run is the chain of its segments read boundary by boundary (the three dense stages each as one
  whole-array function of the arrays it is entered with); the reference's run is its operations composed. Both are then
  read entry by entry and meet in the abstract identity `Cert.Gcn.foldedOut_eq_weightedOut`.
-/
import proofs.«130958_j76905684402542_2_alg».proof.Defs
import proofs.«130958_j76905684402542_2_alg».proof.Proof.Gen.Kernel
import proofs.«130958_j76905684402542_2_alg».proof.Proof.Gen.Kernel.Frame
import proofs.«130958_j76905684402542_2_alg».proof.Proof.Gen.KernelIdeal
import proofs.«130958_j76905684402542_2_alg».proof.Proof.Gen.KernelIdeal.Frame
import proofs.«130958_j76905684402542_2_alg».proof.Proof.Gen.ReferenceIdeal
import proofs.«130958_j76905684402542_2_alg».proof.Proof.Gen.Pre_finite_inputs
import proofs.«130958_j76905684402542_2_alg».proof.Proof.KRun
import proofs.«130958_j76905684402542_2_alg».proof.Proof.KFlow
import proofs.«130958_j76905684402542_2_alg».proof.Proof.KIndex
import proofs.«130958_j76905684402542_2_alg».proof.Proof.KFacts
import proofs.«130958_j76905684402542_2_alg».proof.Proof.KPre
import proofs.«130958_j76905684402542_2_alg».proof.Proof.RefRunP
import proofs.«130958_j76905684402542_2_alg».proof.Proof.RefSide
import proofs.«130958_j76905684402542_2_alg».proof.Proof.RefRes
import proofs.«130958_j76905684402542_2_alg».proof.Proof.LibGcnFold
import Idealize.ShloMosaic.Adequacy
import Idealize.ShloMosaic.Init

noncomputable section

namespace Cert.Proof

open Idealize.ShloMosaic Idealize.ShloMosaic.TcCoe Idealize.ShloMosaic.ValueIdx Idealize.SL.Sem
open Cert.EdgeLoss

/-- On real features, weights and biases the folded program and the weighted reference compute one array. -/
theorem result_eq_ref [Cert.Pre_finite_inputs.Facts] (x0 : FVec Ideal Cert.KernelIdeal.S100000x64 .f32) (x1 : IVec Cert.KernelIdeal.S2x1600000 32)
    (x2 : FVec Ideal Cert.KernelIdeal.S64x64 .f32) (x3 : FVec Ideal Cert.KernelIdeal.S64 .f32) (x4 : FVec Ideal Cert.KernelIdeal.S64x32 .f32)
    (x5 : FVec Ideal Cert.KernelIdeal.S32 .f32)
    (hfin : Cert.Pre_finite_inputs.fn (F := Ideal) x0 x1 x2 x3 x4 x5 = fun _ => 1#1) :
    Cert.KernelIdeal.Flow.result x0 x1 x2 x3 x4 x5 = Cert.RefSide.refResult x0 x1 x2 x3 x4 x5 := by
  obtain ⟨h0, h2, h3, h4, h5⟩ := Cert.PreFinite.finite_of_pre x0 x1 x2 x3 x4 x5 hfin
  funext i
  obtain ⟨r, q, rfl⟩ : ∃ (r : Fin 100000) (q : Fin 32), i = ix2 r q := ⟨i 0, i 1, eq_ix2 i⟩
  rw [Cert.KernelIdeal.Flow.result_apply, Cert.RefSide.refResult_apply]
  exact Cert.Gcn.foldedOut_eq_weightedOut _ _ _ _ (fun n => Cert.KernelIdeal.Flow.isReal_dinv _ n)
    (fun n j hj => Cert.KernelIdeal.Flow.rowOf_of_mem _ n j hj) _ _ _ _ _ _ (fun n i => h0 _) (fun i k => h2 _) (fun k => h3 _)
    (fun k q => h4 _) (by rw [Ideal.ofBits_zero_f32]; exact isReal_zero) r q

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end with the folded layers' array: the kernel program by its run read through its segments, the
    reference because its weighted layers are that array on the real inputs the precondition grants. -/
theorem algebraic : Cert.algebraic_KernelIdeal_ReferenceIdeal := by
  intro m ρ m' ρ' hpre hagree
  refine ⟨fun c => Cert.KernelIdeal.Flow.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.KernelIdeal.Flow.result_eq m ρ c), (h c).2⟩)
      (Cert.KernelIdeal.Gen.run_result m ρ)
  · refine (θ_run Cert.ReferenceIdeal.defs _ _).mono (fun r h c => ⟨(h c).1.trans ?_, (h c).2⟩) (Cert.ReferenceIdeal.ValueP.run (F := Ideal) m' ρ')
    rw [Cert.RefSide.res_eq, (hagree c).1, (hagree c).2.1, (hagree c).2.2.1, (hagree c).2.2.2.1, (hagree c).2.2.2.2.1,
      (hagree c).2.2.2.2.2]
    exact (result_eq_ref _ _ _ _ _ _ (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
